-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x48 : Shape := ⟨2, ![100000, 48]⟩
abbrev S2x1600000 : Shape := ⟨2, ![2, 1600000]⟩
abbrev S100000x16 : Shape := ⟨2, ![100000, 16]⟩
abbrev S64x32 : Shape := ⟨2, ![64, 32]⟩
abbrev S32 : Shape := ⟨1, ![32]⟩
abbrev S48x48 : Shape := ⟨2, ![48, 48]⟩
abbrev S48 : Shape := ⟨1, ![48]⟩
abbrev S48x16 : Shape := ⟨2, ![48, 16]⟩
abbrev S16 : Shape := ⟨1, ![16]⟩
abbrev S_ : Shape := ⟨0, ![]⟩

class Facts : Prop where
  bcast_S_S100000x48 : S_.BroadcastsInDim S100000x48 (![] : Fin 0 → Fin S100000x48.rank)
  reducesTo_S100000x48_S_d0_1 : S100000x48.ReducesTo [0, 1] S_
  h_S_ : 0 < S_.numel
  bcast_S_S100000x16 : S_.BroadcastsInDim S100000x16 (![] : Fin 0 → Fin S100000x16.rank)
  reducesTo_S100000x16_S_d0_1 : S100000x16.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S48x48 : S_.BroadcastsInDim S48x48 (![] : Fin 0 → Fin S48x48.rank)
  reducesTo_S48x48_S_d0_1 : S48x48.ReducesTo [0, 1] S_
  bcast_S_S48 : S_.BroadcastsInDim S48 (![] : Fin 0 → Fin S48.rank)
  reducesTo_S48_S_d0 : S48.ReducesTo [0] S_
  bcast_S_S48x16 : S_.BroadcastsInDim S48x16 (![] : Fin 0 → Fin S48x16.rank)
  reducesTo_S48x16_S_d0_1 : S48x16.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_arg12 : FVec F S48x16 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S48x16 .f32 := Host.absf main_arg12
  let main_cst_20 : FVec F S_ .f32 := constant S_ .f32 0x7F800000#32
  let main_v55 : FVec F S48x16 .f32 := broadcastInDim S48x16 ![] bcast_S_S48x16 main_cst_20
  let main_v56 : IVec S48x16 1 := cmpf .olt main_v54 main_v55
  let main_c_21 : IVec S_ 1 := constantI S_ 1 1#1
  let main_v57 : IVec S_ 1 := (fun x v => Host.reduce IntOp.andi x v reducesTo_S48x16_S_d0_1 h_S_) main_v56 main_c_21
  let main_v58 : IVec S_ 1 := andi main_v53 main_v57
  main_v58

def fn_part2 {F : FTy → Type} [FloatOps F] (main_arg8 : FVec F S48 .f32) (main_arg9 : FVec F S48x48 .f32) (main_arg10 : FVec F S48x16 .f32) (main_arg11 : FVec F S16 .f32) (main_arg12 : FVec F S48x16 .f32) (main_v33 : IVec S_ 1) : IVec S_ 1 :=
  let main_v34 : FVec F S48 .f32 := Host.absf main_arg8
  let main_cst_12 : FVec F S_ .f32 := constant S_ .f32 0x7F800000#32
  let main_v35 : FVec F S48 .f32 := broadcastInDim S48 ![] bcast_S_S48 main_cst_12
  let main_v36 : IVec S48 1 := cmpf .olt main_v34 main_v35
  let main_c_13 : IVec S_ 1 := constantI S_ 1 1#1
  let main_v37 : IVec S_ 1 := (fun x v => Host.reduce IntOp.andi x v reducesTo_S48_S_d0 h_S_) main_v36 main_c_13
  let main_v38 : IVec S_ 1 := andi main_v33 main_v37
  let main_v39 : FVec F S48x48 .f32 := Host.absf main_arg9
  let main_cst_14 : FVec F S_ .f32 := constant S_ .f32 0x7F800000#32
  let main_v40 : FVec F S48x48 .f32 := broadcastInDim S48x48 ![] bcast_S_S48x48 main_cst_14
  let main_v41 : IVec S48x48 1 := cmpf .olt main_v39 main_v40
  let main_c_15 : IVec S_ 1 := constantI S_ 1 1#1
  let main_v42 : IVec S_ 1 := (fun x v => Host.reduce IntOp.andi x v reducesTo_S48x48_S_d0_1 h_S_) main_v41 main_c_15
  let main_v43 : IVec S_ 1 := andi main_v38 main_v42
  let main_v44 : FVec F S48x16 .f32 := Host.absf main_arg10
  let main_cst_16 : FVec F S_ .f32 := constant S_ .f32 0x7F800000#32
  let main_v45 : FVec F S48x16 .f32 := broadcastInDim S48x16 ![] bcast_S_S48x16 main_cst_16
  let main_v46 : IVec S48x16 1 := cmpf .olt main_v44 main_v45
  let main_c_17 : IVec S_ 1 := constantI S_ 1 1#1
  let main_v47 : IVec S_ 1 := (fun x v => Host.reduce IntOp.andi x v reducesTo_S48x16_S_d0_1 h_S_) main_v46 main_c_17
  let main_v48 : IVec S_ 1 := andi main_v43 main_v47
  let main_v49 : FVec F S16 .f32 := Host.absf main_arg11
  let main_cst_18 : FVec F S_ .f32 := constant S_ .f32 0x7F800000#32
  let main_v50 : FVec F S16 .f32 := broadcastInDim S16 ![] bcast_S_S16 main_cst_18
  fn_part3 (F := F) main_arg12 main_v48 main_v49 main_v50

def fn_part1 {F : FTy → Type} [FloatOps F] (main_arg5 : FVec F S32 .f32) (main_arg6 : FVec F S64x32 .f32) (main_arg7 : FVec F S48x48 .f32) (main_arg8 : FVec F S48 .f32) (main_arg9 : FVec F S48x48 .f32) (main_arg10 : FVec F S48x16 .f32) (main_arg11 : FVec F S16 .f32) (main_arg12 : FVec F S48x16 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S48x48 .f32 := Host.absf main_arg7
  let main_cst_10 : FVec F S_ .f32 := constant S_ .f32 0x7F800000#32
  let main_v30 : FVec F S48x48 .f32 := broadcastInDim S48x48 ![] bcast_S_S48x48 main_cst_10
  let main_v31 : IVec S48x48 1 := cmpf .olt main_v29 main_v30
  let main_c_11 : IVec S_ 1 := constantI S_ 1 1#1
  let main_v32 : IVec S_ 1 := (fun x v => Host.reduce IntOp.andi x v reducesTo_S48x48_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x48 .f32) (main_arg1 : IVec S2x1600000 32) (main_arg2 : FVec F S100000x16 .f32) (main_arg3 : FVec F S100000x16 .f32) (main_arg4 : FVec F S64x32 .f32) (main_arg5 : FVec F S32 .f32) (main_arg6 : FVec F S64x32 .f32) (main_arg7 : FVec F S48x48 .f32) (main_arg8 : FVec F S48 .f32) (main_arg9 : FVec F S48x48 .f32) (main_arg10 : FVec F S48x16 .f32) (main_arg11 : FVec F S16 .f32) (main_arg12 : FVec F S48x16 .f32) : IVec S_ 1 :=
  let main_v0 : FVec F S100000x48 .f32 := Host.absf main_arg0
  let main_cst : FVec F S_ .f32 := constant S_ .f32 0x7F800000#32
  let main_v1 : FVec F S100000x48 .f32 := broadcastInDim S100000x48 ![] bcast_S_S100000x48 main_cst
  let main_v2 : IVec S100000x48 1 := cmpf .olt main_v0 main_v1
  let main_c : IVec S_ 1 := constantI S_ 1 1#1
  let main_v3 : IVec S_ 1 := (fun x v => Host.reduce IntOp.andi x v reducesTo_S100000x48_S_d0_1 h_S_) main_v2 main_c
  let main_v4 : FVec F S100000x16 .f32 := Host.absf main_arg2
  let main_cst_0 : FVec F S_ .f32 := constant S_ .f32 0x7F800000#32
  let main_v5 : FVec F S100000x16 .f32 := broadcastInDim S100000x16 ![] bcast_S_S100000x16 main_cst_0
  let main_v6 : IVec S100000x16 1 := cmpf .olt main_v4 main_v5
  let main_c_1 : IVec S_ 1 := constantI S_ 1 1#1
  let main_v7 : IVec S_ 1 := (fun x v => Host.reduce IntOp.andi x v reducesTo_S100000x16_S_d0_1 h_S_) main_v6 main_c_1
  let main_v8 : IVec S_ 1 := andi main_v3 main_v7
  let main_v9 : FVec F S100000x16 .f32 := Host.absf main_arg3
  let main_cst_2 : FVec F S_ .f32 := constant S_ .f32 0x7F800000#32
  let main_v10 : FVec F S100000x16 .f32 := broadcastInDim S100000x16 ![] bcast_S_S100000x16 main_cst_2
  let main_v11 : IVec S100000x16 1 := cmpf .olt main_v9 main_v10
  let main_c_3 : IVec S_ 1 := constantI S_ 1 1#1
  let main_v12 : IVec S_ 1 := (fun x v => Host.reduce IntOp.andi x v reducesTo_S100000x16_S_d0_1 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_arg8 main_arg9 main_arg10 main_arg11 main_arg12 main_v13 main_v16
-- ==== Kernel.lean ====
abbrev S100000x48 : Shape := ⟨2, ![100000, 48]⟩
abbrev S2x1600000 : Shape := ⟨2, ![2, 1600000]⟩
abbrev S100000x16 : Shape := ⟨2, ![100000, 16]⟩
abbrev S64x32 : Shape := ⟨2, ![64, 32]⟩
abbrev S32 : Shape := ⟨1, ![32]⟩
abbrev S48x48 : Shape := ⟨2, ![48, 48]⟩
abbrev S48 : Shape := ⟨1, ![48]⟩
abbrev S48x16 : Shape := ⟨2, ![48, 16]⟩
abbrev S16 : Shape := ⟨1, ![16]⟩
abbrev S1x1600000 : Shape := ⟨2, ![1, 1600000]⟩
abbrev S1600000 : Shape := ⟨1, ![1600000]⟩
abbrev S100000x64 : Shape := ⟨2, ![100000, 64]⟩
abbrev S_ : Shape := ⟨0, ![]⟩
abbrev S1600000x1 : Shape := ⟨2, ![1600000, 1]⟩
abbrev S1600000x64 : Shape := ⟨2, ![1600000, 64]⟩
abbrev S1x32 : Shape := ⟨2, ![1, 32]⟩
abbrev S100000x32 : Shape := ⟨2, ![100000, 32]⟩
abbrev S5000x64 : Shape := ⟨2, ![5000, 64]⟩
abbrev S5000x32 : Shape := ⟨2, ![5000, 32]⟩
abbrev S1600000x48 : Shape := ⟨2, ![1600000, 48]⟩
abbrev S1x48 : Shape := ⟨2, ![1, 48]⟩
abbrev S5000x48 : Shape := ⟨2, ![5000, 48]⟩
abbrev S1x16 : Shape := ⟨2, ![1, 16]⟩
abbrev S5000x16 : Shape := ⟨2, ![5000, 16]⟩

abbrev nBuf : Space → Nat
  | .hbm => 64
  | .vmem => 29
  | .smem => 0
  | _ => 0

abbrev bufTy : (tb : Table) → Fin (tcTables nBuf tb) → BufTy
  | .hbm, ⟨0, _⟩ => ⟨S100000x48, .f32⟩
  | .hbm, ⟨1, _⟩ => ⟨S2x1600000, .i32⟩
  | .hbm, ⟨2, _⟩ => ⟨S100000x16, .f32⟩
  | .hbm, ⟨3, _⟩ => ⟨S100000x16, .f32⟩
  | .hbm, ⟨4, _⟩ => ⟨S64x32, .f32⟩
  | .hbm, ⟨5, _⟩ => ⟨S32, .f32⟩
  | .hbm, ⟨6, _⟩ => ⟨S64x32, .f32⟩
  | .hbm, ⟨7, _⟩ => ⟨S48x48, .f32⟩
  | .hbm, ⟨8, _⟩ => ⟨S48, .f32⟩
  | .hbm, ⟨9, _⟩ => ⟨S48x48, .f32⟩
  | .hbm, ⟨10, _⟩ => ⟨S48x16, .f32⟩
  | .hbm, ⟨11, _⟩ => ⟨S16, .f32⟩
  | .hbm, ⟨12, _⟩ => ⟨S48x16, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S100000x64, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x64, .f32⟩
  | .hbm, ⟨27, _⟩ => ⟨S_, .f32⟩
  | .hbm, ⟨28, _⟩ => ⟨S100000x64, .f32⟩
  | .hbm, ⟨29, _⟩ => ⟨S1600000x1, .i32⟩
  | .hbm, ⟨30, _⟩ => ⟨S100000x64, .f32⟩
  | .hbm, ⟨31, _⟩ => ⟨S1x32, .f32⟩
  | .hbm, ⟨32, _⟩ => ⟨S100000x32, .f32⟩
  | .hbm, ⟨33, _⟩ => ⟨S100000x48, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x48, .f32⟩
  | .hbm, ⟨43, _⟩ => ⟨S_, .f32⟩
  | .hbm, ⟨44, _⟩ => ⟨S100000x48, .f32⟩
  | .hbm, ⟨45, _⟩ => ⟨S1600000x1, .i32⟩
  | .hbm, ⟨46, _⟩ => ⟨S100000x48, .f32⟩
  | .hbm, ⟨47, _⟩ => ⟨S1x48, .f32⟩
  | .hbm, ⟨48, _⟩ => ⟨S100000x48, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x48, .f32⟩
  | .hbm, ⟨58, _⟩ => ⟨S_, .f32⟩
  | .hbm, ⟨59, _⟩ => ⟨S100000x48, .f32⟩
  | .hbm, ⟨60, _⟩ => ⟨S1600000x1, .i32⟩
  | .hbm, ⟨61, _⟩ => ⟨S100000x48, .f32⟩
  | .hbm, ⟨62, _⟩ => ⟨S1x16, .f32⟩
  | .hbm, ⟨63, _⟩ => ⟨S100000x16, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x32, .f32⟩
  | .local _ .vmem, ⟨5, _⟩ => ⟨S1x32, .f32⟩
  | .local _ .vmem, ⟨6, _⟩ => ⟨S64x32, .f32⟩
  | .local _ .vmem, ⟨7, _⟩ => ⟨S5000x32, .f32⟩
  | .local _ .vmem, ⟨8, _⟩ => ⟨S5000x32, .f32⟩
  | .local _ .vmem, ⟨9, _⟩ => ⟨S5000x48, .f32⟩
  | .local _ .vmem, ⟨10, _⟩ => ⟨S5000x48, .f32⟩
  | .local _ .vmem, ⟨11, _⟩ => ⟨S5000x48, .f32⟩
  | .local _ .vmem, ⟨12, _⟩ => ⟨S5000x48, .f32⟩
  | .local _ .vmem, ⟨13, _⟩ => ⟨S48x48, .f32⟩
  | .local _ .vmem, ⟨14, _⟩ => ⟨S1x48, .f32⟩
  | .local _ .vmem, ⟨15, _⟩ => ⟨S48x48, .f32⟩
  | .local _ .vmem, ⟨16, _⟩ => ⟨S5000x48, .f32⟩
  | .local _ .vmem, ⟨17, _⟩ => ⟨S5000x48, .f32⟩
  | .local _ .vmem, ⟨18, _⟩ => ⟨S5000x48, .f32⟩
  | .local _ .vmem, ⟨19, _⟩ => ⟨S5000x48, .f32⟩
  | .local _ .vmem, ⟨20, _⟩ => ⟨S5000x48, .f32⟩
  | .local _ .vmem, ⟨21, _⟩ => ⟨S5000x48, .f32⟩
  | .local _ .vmem, ⟨22, _⟩ => ⟨S48x16, .f32⟩
  | .local _ .vmem, ⟨23, _⟩ => ⟨S1x16, .f32⟩
  | .local _ .vmem, ⟨24, _⟩ => ⟨S48x16, .f32⟩
  | .local _ .vmem, ⟨25, _⟩ => ⟨S5000x16, .f32⟩
  | .local _ .vmem, ⟨26, _⟩ => ⟨S5000x16, .f32⟩
  | .local _ .vmem, ⟨27, _⟩ => ⟨S5000x16, .f32⟩
  | .local _ .vmem, ⟨28, _⟩ => ⟨S5000x16, .f32⟩
  | _, _ => ⟨S100000x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_1 : Ref sig .tc := ⟨.hbm, 34, rfl⟩
abbrev main_v18 : Ref sig .tc := ⟨.hbm, 35, rfl⟩
abbrev main_v19 : Ref sig .tc := ⟨.hbm, 36, rfl⟩
abbrev main_c_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc2_stg6_0 : Ref sig .tc := ⟨.vmem, 27, rfl⟩
abbrev cc2_stg6_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc2_sem6_0 : DmaSem sig := 27
abbrev cc2_sem6_1 : DmaSem sig := 28

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x48 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x48 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S48x48 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x48 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S48x48 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x48 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x48 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x48 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S48x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S48x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S5000x16 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S100000x48_S100000x16_S100000x64_d1 : Shape.Concatenates [S100000x48, S100000x16] S100000x64 1
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S32_S1x32 : S32.ShapeCasts S1x32
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  concatenates_S100000x32_S100000x16_S100000x48_d1 : Shape.Concatenates [S100000x32, S100000x16] S100000x48 1
  bcast_S_S100000x48 : S_.BroadcastsInDim S100000x48 (![] : Fin 0 → Fin S100000x48.rank)
  shapeCasts_S48_S1x48 : S48.ShapeCasts S1x48
  inb_S5000x48_S5000x48_0_0 : ∀ a, (![0, 0] : Fin 2 → Nat) a + S5000x48.size a ≤ S5000x48.size a
  h_S5000x48 : 0 < S5000x48.numel
  shapeCasts_S5000x48_S5000x48 : S5000x48.ShapeCasts S5000x48
  inb_S48x48_S48x48_0_0 : ∀ a, (![0, 0] : Fin 2 → Nat) a + S48x48.size a ≤ S48x48.size a
  h_S48x48 : 0 < S48x48.numel
  inb_S1x48_S1x48_0_0 : ∀ a, (![0, 0] : Fin 2 → Nat) a + S1x48.size a ≤ S1x48.size a
  h_S1x48 : 0 < S1x48.numel
  shapeCasts_S1x48_S1x48 : S1x48.ShapeCasts S1x48
  broadcasts_S1x48_S5000x48 : S1x48.Broadcasts S5000x48
  shapeCasts_S16_S1x16 : S16.ShapeCasts S1x16
  inb_S48x16_S48x16_0_0 : ∀ a, (![0, 0] : Fin 2 → Nat) a + S48x16.size a ≤ S48x16.size a
  h_S48x16 : 0 < S48x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x32_S5000x32_1_0_0_1_n_n_wf : DotDims.WF S5000x64 S64x32 S5000x32 [1] [0] [0] [1] [] []
  gather_S100000x48_S1600000x1_S1600000x48_1_0_n_n_0_1_148_wf : GatherDims.WF S100000x48 S1600000x1 S1600000x48 [1] [0] [] [0] [] 1 ![1, 48]
  scatter_S100000x48_S1600000x1_S1600000x48_1_0_0_1_wf : ScatterDims.WF S100000x48 S1600000x1 S1600000x48 [1] [0] [0] 1
  dot_S5000x48_S48x48_S5000x48_1_0_0_1_n_n_wf : DotDims.WF S5000x48 S48x48 S5000x48 [1] [0] [0] [1] [] []
  dot_S5000x48_S48x16_S5000x16_1_0_0_1_n_n_wf : DotDims.WF S5000x48 S48x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x32.size a ≤ S64x32.size a
  hwx0_2 : ∀ i : grid0.Coords, EltTy.bits .f32 = 32 ∨ (Rect.block (s := S64x32) S64x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x32.size a ≤ S64x32.size a
  hwx0_4 : ∀ i : grid0.Coords, EltTy.bits .f32 = 32 ∨ (Rect.block (s := S64x32) S64x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x32.size a ≤ S100000x32.size a
  hwx0_5 : ∀ i : grid0.Coords, EltTy.bits .f32 = 32 ∨ (Rect.block (s := S100000x32) S5000x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x48.size a ≤ S100000x48.size a
  hwx1_0 : ∀ i : grid1.Coords, EltTy.bits .f32 = 32 ∨ (Rect.block (s := S100000x48) S5000x48.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x48.size a ≤ S100000x48.size a
  hwx1_1 : ∀ i : grid1.Coords, EltTy.bits .f32 = 32 ∨ (Rect.block (s := S100000x48) S5000x48.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S48x48.size a ≤ S48x48.size a
  hwx1_2 : ∀ i : grid1.Coords, EltTy.bits .f32 = 32 ∨ (Rect.block (s := S48x48) S48x48.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x48.size a ≤ S1x48.size a
  hwx1_3 : ∀ i : grid1.Coords, EltTy.bits .f32 = 32 ∨ (Rect.block (s := S1x48) S1x48.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S48x48.size a ≤ S48x48.size a
  hwx1_4 : ∀ i : grid1.Coords, EltTy.bits .f32 = 32 ∨ (Rect.block (s := S48x48) S48x48.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x48.size a ≤ S100000x48.size a
  hwx1_5 : ∀ i : grid1.Coords, EltTy.bits .f32 = 32 ∨ (Rect.block (s := S100000x48) S5000x48.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x48.size a ≤ S100000x48.size a
  hwx2_0 : ∀ i : grid2.Coords, EltTy.bits .f32 = 32 ∨ (Rect.block (s := S100000x48) S5000x48.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x48.size a ≤ S100000x48.size a
  hwx2_1 : ∀ i : grid2.Coords, EltTy.bits .f32 = 32 ∨ (Rect.block (s := S100000x48) S5000x48.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S48x16.size a ≤ S48x16.size a
  hwx2_2 : ∀ i : grid2.Coords, EltTy.bits .f32 = 32 ∨ (Rect.block (s := S48x16) S48x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x16.size a ≤ S1x16.size a
  hwx2_3 : ∀ i : grid2.Coords, EltTy.bits .f32 = 32 ∨ (Rect.block (s := S1x16) S1x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S48x16.size a ≤ S48x16.size a
  hwx2_4 : ∀ i : grid2.Coords, EltTy.bits .f32 = 32 ∨ (Rect.block (s := S48x16) S48x16.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x16.size a ≤ S100000x16.size a
  hwx2_5 : ∀ i : grid2.Coords, EltTy.bits .f32 = 32 ∨ (Rect.block (s := S100000x16) S5000x16.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x16.size a ≤ S100000x16.size a
  hwx2_6 : ∀ i : grid2.Coords, EltTy.bits .f32 = 32 ∨ (Rect.block (s := S100000x16) S5000x16.size (cc2_transform_6 i) (hinb2_6 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x48_S1600000x1_S1600000x48_1_0_n_n_0_1_148 : GatherDims S100000x48 S1600000x1 S1600000x48 where
  offsetDims := [1]
  collapsedSliceDims := [0]
  operandBatchingDims := []
  startIndicesBatchingDims := []
  startIndexMap := [0]
  indexVectorDim := 1
  sliceSizes := ![1, 48]
  wf := gather_S100000x48_S1600000x1_S1600000x48_1_0_n_n_0_1_148_wf
def scatter_S100000x48_S1600000x1_S1600000x48_1_0_0_1 : ScatterDims S100000x48 S1600000x1 S1600000x48 where
  updateWindowDims := [1]
  insertedWindowDims := [0]
  scatterDimsToOperandDims := [0]
  indexVectorDim := 1
  wf := scatter_S100000x48_S1600000x1_S1600000x48_1_0_0_1_wf
def dot_S5000x48_S48x48_S5000x48_1_0_0_1_n_n : DotDims S5000x48 S48x48 S5000x48 where
  lhsContracting := [1]
  rhsContracting := [0]
  lhsNonContracting := [0]
  rhsNonContracting := [1]
  lhsBatch := []
  rhsBatch := []
  wf := dot_S5000x48_S48x48_S5000x48_1_0_0_1_n_n_wf
def dot_S5000x48_S48x16_S5000x16_1_0_0_1_n_n : DotDims S5000x48 S48x16 S5000x16 where
  lhsContracting := [1]
  rhsContracting := [0]
  lhsNonContracting := [0]
  rhsNonContracting := [1]
  lhsBatch := []
  rhsBatch := []
  wf := dot_S5000x48_S48x16_S5000x16_1_0_0_1_n_n_wf

abbrev win0_0 : Pipeline.Window sig grid0 :=
  Pipeline.Window.ofSpec (Memref.whole main_v14) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S5000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v27) S5000x48.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x48.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S48x48.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x48.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S48x48.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S5000x48.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v39) S5000x48.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S5000x48.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S48x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S48x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg2) S5000x16.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v41) S5000x16.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x48 : Shape := ⟨2, ![100000, 48]⟩
abbrev S2x1600000 : Shape := ⟨2, ![2, 1600000]⟩
abbrev S100000x16 : Shape := ⟨2, ![100000, 16]⟩
abbrev S64x32 : Shape := ⟨2, ![64, 32]⟩
abbrev S32 : Shape := ⟨1, ![32]⟩
abbrev S48x48 : Shape := ⟨2, ![48, 48]⟩
abbrev S48 : Shape := ⟨1, ![48]⟩
abbrev S48x16 : Shape := ⟨2, ![48, 16]⟩
abbrev S16 : Shape := ⟨1, ![16]⟩
abbrev S1x1600000 : Shape := ⟨2, ![1, 1600000]⟩
abbrev S1600000 : Shape := ⟨1, ![1600000]⟩
abbrev S100000x64 : Shape := ⟨2, ![100000, 64]⟩
abbrev S_ : Shape := ⟨0, ![]⟩
abbrev S1600000x1 : Shape := ⟨2, ![1600000, 1]⟩
abbrev S1600000x64 : Shape := ⟨2, ![1600000, 64]⟩
abbrev S100000x32 : Shape := ⟨2, ![100000, 32]⟩
abbrev S1x32 : Shape := ⟨2, ![1, 32]⟩
abbrev S1600000x48 : Shape := ⟨2, ![1600000, 48]⟩
abbrev S1x48 : Shape := ⟨2, ![1, 48]⟩
abbrev S1x16 : Shape := ⟨2, ![1, 16]⟩

abbrev nBuf : Space → Nat
  | .hbm => 83
  | .vmem => 0
  | .smem => 0
  | _ => 0

abbrev bufTy : (tb : Table) → Fin (tcTables nBuf tb) → BufTy
  | .hbm, ⟨0, _⟩ => ⟨S100000x48, .f32⟩
  | .hbm, ⟨1, _⟩ => ⟨S2x1600000, .i32⟩
  | .hbm, ⟨2, _⟩ => ⟨S100000x16, .f32⟩
  | .hbm, ⟨3, _⟩ => ⟨S100000x16, .f32⟩
  | .hbm, ⟨4, _⟩ => ⟨S64x32, .f32⟩
  | .hbm, ⟨5, _⟩ => ⟨S32, .f32⟩
  | .hbm, ⟨6, _⟩ => ⟨S64x32, .f32⟩
  | .hbm, ⟨7, _⟩ => ⟨S48x48, .f32⟩
  | .hbm, ⟨8, _⟩ => ⟨S48, .f32⟩
  | .hbm, ⟨9, _⟩ => ⟨S48x48, .f32⟩
  | .hbm, ⟨10, _⟩ => ⟨S48x16, .f32⟩
  | .hbm, ⟨11, _⟩ => ⟨S16, .f32⟩
  | .hbm, ⟨12, _⟩ => ⟨S48x16, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S100000x64, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x64, .f32⟩
  | .hbm, ⟨27, _⟩ => ⟨S_, .f32⟩
  | .hbm, ⟨28, _⟩ => ⟨S100000x64, .f32⟩
  | .hbm, ⟨29, _⟩ => ⟨S1600000x1, .i32⟩
  | .hbm, ⟨30, _⟩ => ⟨S100000x64, .f32⟩
  | .hbm, ⟨31, _⟩ => ⟨S100000x32, .f32⟩
  | .hbm, ⟨32, _⟩ => ⟨S1x32, .f32⟩
  | .hbm, ⟨33, _⟩ => ⟨S100000x32, .f32⟩
  | .hbm, ⟨34, _⟩ => ⟨S100000x32, .f32⟩
  | .hbm, ⟨35, _⟩ => ⟨S100000x32, .f32⟩
  | .hbm, ⟨36, _⟩ => ⟨S100000x32, .f32⟩
  | .hbm, ⟨37, _⟩ => ⟨S_, .f32⟩
  | .hbm, ⟨38, _⟩ => ⟨S100000x32, .f32⟩
  | .hbm, ⟨39, _⟩ => ⟨S100000x32, .f32⟩
  | .hbm, ⟨40, _⟩ => ⟨S100000x48, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x48, .f32⟩
  | .hbm, ⟨50, _⟩ => ⟨S_, .f32⟩
  | .hbm, ⟨51, _⟩ => ⟨S100000x48, .f32⟩
  | .hbm, ⟨52, _⟩ => ⟨S1600000x1, .i32⟩
  | .hbm, ⟨53, _⟩ => ⟨S100000x48, .f32⟩
  | .hbm, ⟨54, _⟩ => ⟨S100000x48, .f32⟩
  | .hbm, ⟨55, _⟩ => ⟨S1x48, .f32⟩
  | .hbm, ⟨56, _⟩ => ⟨S100000x48, .f32⟩
  | .hbm, ⟨57, _⟩ => ⟨S100000x48, .f32⟩
  | .hbm, ⟨58, _⟩ => ⟨S100000x48, .f32⟩
  | .hbm, ⟨59, _⟩ => ⟨S100000x48, .f32⟩
  | .hbm, ⟨60, _⟩ => ⟨S_, .f32⟩
  | .hbm, ⟨61, _⟩ => ⟨S100000x48, .f32⟩
  | .hbm, ⟨62, _⟩ => ⟨S100000x48, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x48, .f32⟩
  | .hbm, ⟨72, _⟩ => ⟨S_, .f32⟩
  | .hbm, ⟨73, _⟩ => ⟨S100000x48, .f32⟩
  | .hbm, ⟨74, _⟩ => ⟨S1600000x1, .i32⟩
  | .hbm, ⟨75, _⟩ => ⟨S100000x48, .f32⟩
  | .hbm, ⟨76, _⟩ => ⟨S100000x16, .f32⟩
  | .hbm, ⟨77, _⟩ => ⟨S1x16, .f32⟩
  | .hbm, ⟨78, _⟩ => ⟨S100000x16, .f32⟩
  | .hbm, ⟨79, _⟩ => ⟨S100000x16, .f32⟩
  | .hbm, ⟨80, _⟩ => ⟨S100000x16, .f32⟩
  | .hbm, ⟨81, _⟩ => ⟨S100000x16, .f32⟩
  | .hbm, ⟨82, _⟩ => ⟨S100000x16, .f32⟩
  | _, _ => ⟨S100000x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_call0_cst : Ref sig .tc := ⟨.hbm, 37, rfl⟩
abbrev main_call0_v0 : Ref sig .tc := ⟨.hbm, 38, rfl⟩
abbrev main_v21 : Ref sig .tc := ⟨.hbm, 39, rfl⟩
abbrev main_v22 : Ref sig .tc := ⟨.hbm, 40, rfl⟩
abbrev main_c_1 : Ref sig .tc := ⟨.hbm, 41, rfl⟩
abbrev main_v23 : Ref sig .tc := ⟨.hbm, 42, rfl⟩
abbrev main_v24 : Ref sig .tc := ⟨.hbm, 43, rfl⟩
abbrev main_c_2 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_3 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_call1_cst : Ref sig .tc := ⟨.hbm, 60, rfl⟩
abbrev main_call1_v0 : Ref sig .tc := ⟨.hbm, 61, rfl⟩
abbrev main_v39 : Ref sig .tc := ⟨.hbm, 62, rfl⟩
abbrev main_c_4 : Ref sig .tc := ⟨.hbm, 63, rfl⟩
abbrev main_v40 : Ref sig .tc := ⟨.hbm, 64, rfl⟩
abbrev main_v41 : Ref sig .tc := ⟨.hbm, 65, rfl⟩
abbrev main_c_5 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_6 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S100000x48_S100000x16_S100000x64_d1 : Shape.Concatenates [S100000x48, S100000x16] S100000x64 1
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  concatenates_S100000x32_S100000x16_S100000x48_d1 : Shape.Concatenates [S100000x32, S100000x16] S100000x48 1
  bcast_S_S100000x48 : S_.BroadcastsInDim S100000x48 (![] : Fin 0 → Fin S100000x48.rank)
  bcast_S48_S1x48_1 : S48.BroadcastsInDim S1x48 (![1] : Fin 1 → Fin S1x48.rank)
  bcast_S1x48_S100000x48_0_1 : S1x48.BroadcastsInDim S100000x48 (![0, 1] : Fin 2 → Fin S100000x48.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []
  gather_S100000x48_S1600000x1_S1600000x48_1_0_n_n_0_1_148_wf : GatherDims.WF S100000x48 S1600000x1 S1600000x48 [1] [0] [] [0] [] 1 ![1, 48]
  scatter_S100000x48_S1600000x1_S1600000x48_1_0_0_1_wf : ScatterDims.WF S100000x48 S1600000x1 S1600000x48 [1] [0] [0] 1
  dot_S100000x48_S48x48_S100000x48_1_0_0_1_n_n_wf : DotDims.WF S100000x48 S48x48 S100000x48 [1] [0] [0] [1] [] []
  dot_S100000x48_S48x16_S100000x16_1_0_0_1_n_n_wf : DotDims.WF S100000x48 S48x16 S100000x16 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x48_S1600000x1_S1600000x48_1_0_n_n_0_1_148 : GatherDims S100000x48 S1600000x1 S1600000x48 where
  offsetDims := [1]
  collapsedSliceDims := [0]
  operandBatchingDims := []
  startIndicesBatchingDims := []
  startIndexMap := [0]
  indexVectorDim := 1
  sliceSizes := ![1, 48]
  wf := gather_S100000x48_S1600000x1_S1600000x48_1_0_n_n_0_1_148_wf
def scatter_S100000x48_S1600000x1_S1600000x48_1_0_0_1 : ScatterDims S100000x48 S1600000x1 S1600000x48 where
  updateWindowDims := [1]
  insertedWindowDims := [0]
  scatterDimsToOperandDims := [0]
  indexVectorDim := 1
  wf := scatter_S100000x48_S1600000x1_S1600000x48_1_0_0_1_wf
def dot_S100000x48_S48x48_S100000x48_1_0_0_1_n_n : DotDims S100000x48 S48x48 S100000x48 where
  lhsContracting := [1]
  rhsContracting := [0]
  lhsNonContracting := [0]
  rhsNonContracting := [1]
  lhsBatch := []
  rhsBatch := []
  wf := dot_S100000x48_S48x48_S100000x48_1_0_0_1_n_n_wf
def dot_S100000x48_S48x16_S100000x16_1_0_0_1_n_n : DotDims S100000x48 S48x16 S100000x16 where
  lhsContracting := [1]
  rhsContracting := [0]
  lhsNonContracting := [0]
  rhsNonContracting := [1]
  lhsBatch := []
  rhsBatch := []
  wf := dot_S100000x48_S48x16_S100000x16_1_0_0_1_n_n_wf

class Facts : Prop extends Facts₀ where

variable [Facts]
-- ==== Proof.KernelRun.lean ====
/-
  The idealized kernel program's run, with every buffer named at its end.

  The program is three tiled regions among stretches of host operations. Run from any memory with all counters at
  zero, every weakly fair execution terminates without a fault, and each buffer that outlives the regions ends
  holding the last boundary's contents: the launch memory pushed through the first host stretch, the first
  region's write-backs, the second stretch, and so on to the last region's write-backs. The frame claim keeps only
  the argument buffers of this statement; the value claim also needs the result buffer, so the run is stated here
  once for all of them, over the same segments and thread states.
-/
import proofs.«137055_j88098369176052_1_alg».proof.Proof.Gen.KernelIdeal.Frame

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, and every buffer that is not scoped to a region ends at
    the contents the last boundary names. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The run with the result buffer and the thirteen argument buffers read off: the result at the last boundary's
    contents, the arguments as launched. -/
theorem run_result : θ_run defs (onTc (τ := τ) (main (F := F))) ⟨m, fun _ => 0, ρ⟩ (fun r => ∀ c : Dev nD,
      r.2.mem ((c.tc : Thread nD τ).loc main_v41) = W6 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
      ⟨h c _ (mem_uc main_v41 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c)⟩)
    (run_all m ρ)

end Cert.KernelIdeal.Whole

end
-- ==== Proof.LibPlainDot.lean ====
/-
  A plain matrix product read at an entry.

  For dimension numbers that contract the left operand's second axis against the right operand's first, with no
  batch axes — an `M×K` array times a `K×N` array — the contraction's index set is one axis of extent `K`, and the
  operand indices at output entry `(p, q)` and contraction position `k` are `(p, k)` on the left and `(k, q)` on the
  right. So the sum over the contraction index set of the operands' products is the textbook
  `∑ k : Fin K, l (p, k) * r (k, q)`. Stated for any dimension-number record whose six lists are the plain ones, so
  that every printed record of this form meets it by `rfl` hypotheses.
-/
import Idealize.ShloMosaic.Lib.ValueIdx
import Idealize.ShloMosaic.PureOps.Ideal.Laws

noncomputable section

namespace Cert.LibPlainDot

open Idealize.ShloMosaic Idealize.ShloMosaic.ValueIdx

/-- The sum over a plain product's contraction index set, at output entry `(p, q)`, is the sum over `k : Fin K` of
    the left operand at `(p, k)` times the right operand at `(k, q)`, in any commutative additive monoid with a
    product. -/
theorem sum_plain {R : Type} [AddCommMonoid R] [Mul R] {M K N : Nat}
    (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → R) (r : (⟨2, ![K, N]⟩ : Shape).Idx → R) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ =>
      subst hd
      unfold DotDims.lhsIdx
      split
      · rename_i hb; exact absurd hb List.not_mem_nil
      · split
        · rfl
        · rename_i hn; exact absurd (List.mem_singleton.mpr (Fin.ext rfl)) hn
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ =>
      subst hd
      unfold DotDims.rhsIdx
      split
      · rename_i hb; exact absurd hb List.not_mem_nil
      · split
        · rfl
        · rename_i hn; exact absurd (List.mem_singleton.mpr (Fin.ext rfl)) hn)
  rw [el, er]

end Cert.LibPlainDot

end
-- ==== Proof.LibDenseEntry.lean ====
/-
  A graph-convolution layer's dense part, read one entry at a time over the extended reals.

  A layer takes the aggregated neighbour features `A` and the node features `H` (both `M × K`), two weight matrices
  `W`, `W'` (`K × N`) and a bias row, and forms `A·W + H·W' + bias`. On the extended reals a change of float format is
  the identity and a matrix product into a zero accumulator is the plain sum of products, so entry `(p, q)` of the
  layer is `∑ₖ A(p,k)·W(k,q)`, `∑ₖ H(p,k)·W'(k,q)` and the bias at column `q`, added. The two programs add the three
  terms in different orders — products first, or bias in the middle — and addition on the extended reals is
  commutative and associative, so the orders agree (no finiteness is needed).

  Stated for any extents `M K N` and any dimension-number record of the plain form, so that a block of rows of a
  tiled product and the whole product are instances of the same two lemmas.
-/
import Idealize.ShloMosaic.Lib.ValueIdx
import Idealize.ShloMosaic.Lib.Pipeline.Value
import Idealize.ShloMosaic.PureOps.Ideal.Laws
import proofs.«137055_j88098369176052_1_alg».proof.Proof.LibPlainDot

noncomputable section

namespace Cert.LibDenseEntry

open Idealize.ShloMosaic Idealize.ShloMosaic.ValueIdx

variable {M K N : Nat}

/-- Entry `(p, q)` of the matrix product `A · W`. -/
def mm (A : (⟨2, ![M, K]⟩ : Shape).Idx → EReal) (W : (⟨2, ![K, N]⟩ : Shape).Idx → EReal) (p : Fin M) (q : Fin N) : EReal :=
  ∑ k : Fin K, A (ix2 p k) * W (ix2 k q)

/-- Entry `(p, q)` of `A·W + bias + H·W'`: the order in which the reference adds the three terms. -/
def affine (A H : (⟨2, ![M, K]⟩ : Shape).Idx → EReal) (W W' : (⟨2, ![K, N]⟩ : Shape).Idx → EReal) (b : Fin N → EReal)
    (p : Fin M) (q : Fin N) : EReal :=
  mm A W p q + b q + mm H W' p q

/-- The tiled kernel's order — both products, then the bias — gives the same entry. -/
theorem products_then_bias (A H : (⟨2, ![M, K]⟩ : Shape).Idx → EReal) (W W' : (⟨2, ![K, N]⟩ : Shape).Idx → EReal)
    (b : Fin N → EReal) (p : Fin M) (q : Fin N) :
    mm A W p q + mm H W' p q + b q = affine A H W W' b p q :=
  add_right_comm _ _ _

/-- The entry depends on row `p` of `A` and `H`, column `q` of `W` and `W'`, and the bias at `q` only: operands that agree
    there — a block of rows read in place of the whole array — give the same entry. -/
theorem affine_congr {M' : Nat} (A H : (⟨2, ![M, K]⟩ : Shape).Idx → EReal) (A' H' : (⟨2, ![M', K]⟩ : Shape).Idx → EReal)
    (W W' V V' : (⟨2, ![K, N]⟩ : Shape).Idx → EReal) (b b' : Fin N → EReal) (p : Fin M) (p' : Fin M') (q : Fin N)
    (hA : ∀ k, A (ix2 p k) = A' (ix2 p' k)) (hH : ∀ k, H (ix2 p k) = H' (ix2 p' k))
    (hW : ∀ k, W (ix2 k q) = V (ix2 k q)) (hW' : ∀ k, W' (ix2 k q) = V' (ix2 k q)) (hb : b q = b' q) :
    affine A H W W' b p q = affine A' H' V V' b' p' q := by
  have e1 : mm A W p q = mm A' V p' q := Finset.sum_congr rfl fun k _ => by rw [hA k, hW k]
  have e2 : mm H W' p q = mm H' V' p' q := Finset.sum_congr rfl fun k _ => by rw [hH k, hW' k]
  unfold affine
  rw [e1, e2, hb]

/-- A bias row `[1, N]` spread over `M` rows, read at `(p, q)`, is the row's entry `q`. -/
theorem row_broadcast_apply {α : Type} (b : (⟨2, ![1, N]⟩ : Shape).Idx → α)
    (hbc : (⟨2, ![1, N]⟩ : Shape).Broadcasts ⟨2, ![M, N]⟩) (p : Fin M) (q : Fin N) :
    broadcastTo ⟨2, ![M, N]⟩ b hbc (ix2 p q) = b (ix2 0 q) :=
  broadcastTo_apply b hbc (ix2 p q) (ix2 0 q) (fun a => match a with
    | ⟨0, _⟩ => by show (0 : Nat) = if (1 : Nat) = 1 then 0 else _; rw [if_pos rfl]
    | ⟨1, _⟩ => by
      show q.val = if N = 1 then 0 else q.val
      by_cases hN : N = 1
      · rw [if_pos hN]; have := q.isLt; omega
      · rw [if_neg hN])

/-- The kernel's block computation at an entry: each operand cut to the narrower format (the identity here), two
    matrix products each into a zero accumulator, added, then the bias row spread over the rows and added. -/
theorem kernel_entry (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (x0 x1 : FVec Ideal ⟨2, ![M, K]⟩ .f32) (w w' : FVec Ideal ⟨2, ![K, N]⟩ .f32) (b : FVec Ideal ⟨2, ![1, N]⟩ .f32)
    (h0 : (⟨2, ![M, K]⟩ : Shape).ShapeCasts ⟨2, ![M, K]⟩) (h1 : (⟨2, ![1, N]⟩ : Shape).ShapeCasts ⟨2, ![1, N]⟩)
    (hbc : (⟨2, ![1, N]⟩ : Shape).Broadcasts ⟨2, ![M, N]⟩) (hlt : FTy.bits .bf16 < FTy.bits .f32)
    (p : Fin M) (q : Fin N) :
    addf (F := Ideal)
        (addf (FloatOps.matmul d none (truncf .bf16 (shapeCast ⟨2, ![M, K]⟩ x0 h0) hlt) (truncf .bf16 w hlt) (constant ⟨2, ![M, N]⟩ .f32 0x00000000#32))
          (FloatOps.matmul d none (truncf .bf16 (shapeCast ⟨2, ![M, K]⟩ x1 h0) hlt) (truncf .bf16 w' hlt) (constant ⟨2, ![M, N]⟩ .f32 0x00000000#32)))
        (broadcastTo ⟨2, ![M, N]⟩ (shapeCast ⟨2, ![1, N]⟩ b h1) hbc) (ix2 p q)
      = mm x0 w p q + mm x1 w' p q + b (ix2 0 q) := by
  have e0 : truncf (F := Ideal) .bf16 (shapeCast ⟨2, ![M, K]⟩ x0 h0) hlt = x0 := by rw [shapeCast_self]; rfl
  have e1 : truncf (F := Ideal) .bf16 (shapeCast ⟨2, ![M, K]⟩ x1 h0) hlt = x1 := by rw [shapeCast_self]; rfl
  have ew : truncf (F := Ideal) .bf16 w hlt = w := rfl
  have ew' : truncf (F := Ideal) .bf16 w' hlt = w' := rfl
  rw [e0, e1, ew, ew', shapeCast_self]
  show (FloatOps.matmul d none x0 w (constant ⟨2, ![M, N]⟩ .f32 0x00000000#32) (ix2 p q)
      + FloatOps.matmul d none x1 w' (constant ⟨2, ![M, N]⟩ .f32 0x00000000#32) (ix2 p q))
      + broadcastTo ⟨2, ![M, N]⟩ b hbc (ix2 p q) = _
  rw [Ideal.matmul_constant_zero_apply, Ideal.matmul_constant_zero_apply, row_broadcast_apply,
    Cert.LibPlainDot.sum_plain d hlc hrc hln hrn hlb hrb x0 w p q,
    Cert.LibPlainDot.sum_plain d hlc hrc hln hrn hlb hrb x1 w' p q]
  rfl

/-- The reference's dense part at an entry: a host product, the bias vector spread to a row and then over the rows
    and added, the second host product added. -/
theorem host_entry (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (A H : FVec Ideal ⟨2, ![M, K]⟩ .f32) (W W' : FVec Ideal ⟨2, ![K, N]⟩ .f32) (b : FVec Ideal ⟨1, ![N]⟩ .f32)
    (hb1 : (⟨1, ![N]⟩ : Shape).BroadcastsInDim ⟨2, ![1, N]⟩ ![1])
    (hb2 : (⟨2, ![1, N]⟩ : Shape).BroadcastsInDim ⟨2, ![M, N]⟩ ![0, 1])
    (p : Fin M) (q : Fin N) :
    addf (F := Ideal)
        (addf (Host.dotGeneral d none A W)
          (broadcastInDim ⟨2, ![M, N]⟩ ![0, 1] hb2 (broadcastInDim ⟨2, ![1, N]⟩ ![1] hb1 b)))
        (Host.dotGeneral d none H W') (ix2 p q)
      = affine A H W W' (fun q => b (ix1 q)) p q := by
  show (Host.dotGeneral d none A W (ix2 p q)
      + broadcastInDim ⟨2, ![M, N]⟩ ![0, 1] hb2 (broadcastInDim ⟨2, ![1, N]⟩ ![1] hb1 b) (ix2 p q))
      + Host.dotGeneral d none H W' (ix2 p q) = _
  have hbias : broadcastInDim ⟨2, ![M, N]⟩ ![0, 1] hb2 (broadcastInDim ⟨2, ![1, N]⟩ ![1] hb1 b) (ix2 p q) = b (ix1 q) := by
    rw [broadcastInDim_apply ![0, 1] hb2 _ (ix2 p q) (ix2 0 q) (fun a => match a with
      | ⟨0, _⟩ => by show (0 : Nat) = if (1 : Nat) = 1 then 0 else _; rw [if_pos rfl]
      | ⟨1, _⟩ => by
        show q.val = if N = 1 then 0 else q.val
        by_cases hN : N = 1
        · rw [if_pos hN]; have := q.isLt; omega
        · rw [if_neg hN])]
    exact broadcastInDim_apply ![1] hb1 b (ix2 0 q) (ix1 q) (fun a => match a with
      | ⟨0, _⟩ => by
        show q.val = if N = 1 then 0 else q.val
        by_cases hN : N = 1
        · rw [if_pos hN]; have := q.isLt; omega
        · rw [if_neg hN])
  rw [hbias]
  simp only [Host.dotGeneral]
  rw [Ideal.dotGeneral_apply, Ideal.dotGeneral_apply,
    Cert.LibPlainDot.sum_plain d hlc hrc hln hrn hlb hrb A W p q,
    Cert.LibPlainDot.sum_plain d hlc hrc hln hrn hlb hrb H W' p q]
  rfl

end Cert.LibDenseEntry

end
-- ==== Proof.Layer0.lean ====
/-
  The first layer's region: what its output array holds after the run.

  The region tiles the 100000 node rows into 20 blocks of 5000. At block `t` the body reads rows
  `5000·t … 5000·t + 4999` of the aggregated features and of the node features, both weight matrices whole and
  the bias row, and stores `max(A·W + H·W' + bias, 0)` for those rows. An entry of a matrix product depends on one
  row of the left operand only, so the stored block is the same rows of ONE whole-array function of the arrays the
  region finds, and the 20 blocks cover the output array.
-/
import proofs.«137055_j88098369176052_1_alg».proof.Proof.Gen.KernelIdeal.Frame
import proofs.«137055_j88098369176052_1_alg».proof.Proof.LibDenseEntry
import Idealize.ShloMosaic.Lib.Pipeline.Value
import Idealize.ShloMosaic.Lib.ValueIdx

noncomputable section

namespace Cert.KernelIdeal.Layer0

open Idealize.ShloMosaic Idealize.ShloMosaic.TcCoe Idealize.ShloMosaic.ValueIdx Idealize.SL.Sem
open Cert.KernelIdeal Cert.KernelIdeal.Gen Cert.LibDenseEntry

variable (V : (c : Dev nD) → (b : Ref sig .tc) → Buf (Elt Ideal) ((c : Thread nD τ).loc b))

/-- The layer as one function of whole arrays: `max(A·W + bias + H·W', 0)`, entry by entry. -/
def G (A H : S100000x64.Idx → EReal) (W W' : S64x32.Idx → EReal) (b : S1x32.Idx → EReal) : S100000x32.Idx → EReal :=
  fun i => max (affine A H W W' (fun q => b (ix2 0 q)) (i 0) (i 1)) 0

theorem hz : (![0, 0] : Fin 2 → Nat) = fun _ => 0 := funext fun a => by fin_cases a <;> rfl

/-- The body's stored value at an entry of the block. -/
theorem pay_entry (x0 x1 : Vec Ideal S5000x64 .f32) (w w' : Vec Ideal S64x32 .f32) (b : Vec Ideal S1x32 .f32)
    (p : Fin 5000) (q : Fin 32) :
    k0_pay1 x0 x1 w w' b (ix2 p q) = max (affine x0 x1 w w' (fun q => b (ix2 0 q)) p q) 0 := by
  unfold k0_pay1
  refine congrArg₂ max ((kernel_entry dot_S5000x64_S64x32_S5000x32_1_0_0_1_n_n rfl rfl rfl rfl rfl rfl x0 x1 w w' b
    shapeCasts_S5000x64_S5000x64 shapeCasts_S1x32_S1x32 broadcasts_S1x32_S5000x32 bitsLt_bf16_f32 p q).trans
    (products_then_bias x0 x1 w w' (fun q => b (ix2 0 q)) p q)) ?_
  exact Ideal.ofBits_zero_f32

/-- Where each window's block sits at point `t`: the row-blocked windows at block row `t`, the weights and the bias at
    their one block. Decided over the 20 points. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the aggregated features' block at `t` is row `5000·t + p` of the array. -/
theorem agg_at (c : Dev nD) (t : Fin cfg0.N) (p : Fin 5000) (k : Fin 64) (r : Fin 100000) (hr : r.val = t.val * 5000 + p.val) :
    iblk0 V c 0 t (ix2 p k) = (V c main_v14 : S100000x64.Idx → EReal) (ix2 r k) := by
  obtain ⟨e0, e1, -⟩ := idx_facts t
  show (V c main_v14 : S100000x64.Idx → EReal) (((cfg0.win 0).blk t).view.emb (ix2 p k)) = _
  refine congrArg (V c main_v14 : S100000x64.Idx → EReal) (funext fun a => Fin.ext ?_)
  match a with
  | ⟨0, _⟩ => show win0_0.index t (0 : Fin 2) * 5000 + 1 * p.val = r.val; omega
  | ⟨1, _⟩ => show win0_0.index t (1 : Fin 2) * 64 + 1 * k.val = k.val; omega

/-- Row `p` of the node features' block at `t` is row `5000·t + p` of the array. -/
theorem feat_at (c : Dev nD) (t : Fin cfg0.N) (p : Fin 5000) (k : Fin 64) (r : Fin 100000) (hr : r.val = t.val * 5000 + p.val) :
    iblk0 V c 1 t (ix2 p k) = (V c main_v4 : S100000x64.Idx → EReal) (ix2 r k) := by
  obtain ⟨-, -, e0, e1, -⟩ := idx_facts t
  show (V c main_v4 : S100000x64.Idx → EReal) (((cfg0.win 1).blk t).view.emb (ix2 p k)) = _
  refine congrArg (V c main_v4 : S100000x64.Idx → EReal) (funext fun a => Fin.ext ?_)
  match a with
  | ⟨0, _⟩ => show win0_1.index t (0 : Fin 2) * 5000 + 1 * p.val = r.val; omega
  | ⟨1, _⟩ => show win0_1.index t (1 : Fin 2) * 64 + 1 * k.val = k.val; omega

/-- The first weight matrix's block is the whole matrix. -/
theorem wrel_at (c : Dev nD) (t : Fin cfg0.N) (k : Fin 64) (q : Fin 32) :
    iblk0 V c 2 t (ix2 k q) = (V c main_arg4 : S64x32.Idx → EReal) (ix2 k q) := by
  obtain ⟨-, -, -, -, e0, e1, -⟩ := idx_facts t
  show (V c main_arg4 : S64x32.Idx → EReal) (((cfg0.win 2).blk t).view.emb (ix2 k q)) = _
  refine congrArg (V c main_arg4 : S64x32.Idx → EReal) (funext fun a => Fin.ext ?_)
  match a with
  | ⟨0, _⟩ => show win0_2.index t (0 : Fin 2) * 64 + 1 * k.val = k.val; omega
  | ⟨1, _⟩ => show win0_2.index t (1 : Fin 2) * 32 + 1 * q.val = q.val; omega

/-- The bias row's block is the whole row. -/
theorem bias_at (c : Dev nD) (t : Fin cfg0.N) (q : Fin 32) :
    iblk0 V c 3 t (ix2 0 q) = (V c main_v15 : S1x32.Idx → EReal) (ix2 0 q) := by
  obtain ⟨-, -, -, -, -, -, e0, e1, -⟩ := idx_facts t
  show (V c main_v15 : S1x32.Idx → EReal) (((cfg0.win 3).blk t).view.emb (ix2 0 q)) = _
  refine congrArg (V c main_v15 : S1x32.Idx → EReal) (funext fun a => Fin.ext ?_)
  match a with
  | ⟨0, _⟩ => show win0_3.index t (0 : Fin 2) * 1 + 1 * 0 = 0; omega
  | ⟨1, _⟩ => show win0_3.index t (1 : Fin 2) * 32 + 1 * q.val = q.val; omega

/-- The second weight matrix's block is the whole matrix. -/
theorem wroot_at (c : Dev nD) (t : Fin cfg0.N) (k : Fin 64) (q : Fin 32) :
    iblk0 V c 4 t (ix2 k q) = (V c main_arg6 : S64x32.Idx → EReal) (ix2 k q) := by
  obtain ⟨-, -, -, -, -, -, -, -, e0, e1, -⟩ := idx_facts t
  show (V c main_arg6 : S64x32.Idx → EReal) (((cfg0.win 4).blk t).view.emb (ix2 k q)) = _
  refine congrArg (V c main_arg6 : S64x32.Idx → EReal) (funext fun a => Fin.ext ?_)
  match a with
  | ⟨0, _⟩ => show win0_4.index t (0 : Fin 2) * 64 + 1 * k.val = k.val; omega
  | ⟨1, _⟩ => show win0_4.index t (1 : Fin 2) * 32 + 1 * q.val = q.val; omega

/-- Entry `(p, q)` of the output block at `t` is entry `(5000·t + p, q)` of the output array. -/
theorem out_at (t : Fin cfg0.N) (p : Fin 5000) (q : Fin 32) (r : Fin 100000) (hr : r.val = t.val * 5000 + p.val) :
    ((cfg0.win 5).blk t).view.emb (ix2 p q) = (ix2 r q : S100000x32.Idx) := by
  obtain ⟨-, -, -, -, -, -, -, -, -, -, e0, e1⟩ := idx_facts t
  refine funext fun a => Fin.ext ?_
  match a with
  | ⟨0, _⟩ => show win0_5.index t (0 : Fin 2) * 5000 + 1 * p.val = r.val; omega
  | ⟨1, _⟩ => show win0_5.index t (1 : Fin 2) * 32 + 1 * q.val = q.val; omega

/-- What point `t` writes back is block `t` of the layer's whole-array function of the arrays the region finds. -/
theorem flushed_eq (c : Dev nD) (t : Fin cfg0.N) :
    (dat0 V c).flushed 5 t = ((cfg0.win 5).blk t).view.read (Elt Ideal)
      (G (V c main_v14) (V c main_v4) (V c main_arg4) (V c main_arg6) (V c main_v15)) := by
  show (cfg0.win 5).cut (grid0.coords t) ((dat0 V c).after 5 t) = _
  rw [after0_5]
  unfold out0_5
  rw [View.canon_unit_zero hz]
  simp only [View.ld_unit_zero (S := S5000x64) hz, View.ld_unit_zero (S := S64x32) hz, View.ld_unit_zero (S := S1x32) hz]
  funext j
  obtain ⟨p, q, rfl⟩ : ∃ (p : Fin 5000) (q : Fin 32), j = ix2 p q := ⟨j 0, j 1, eq_ix2 j⟩
  have hN : grid0.N = 20 := N_0
  have ht : t.val < 20 := hN ▸ t.isLt
  obtain ⟨r, hr⟩ : ∃ r : Fin 100000, r.val = t.val * 5000 + p.val := ⟨⟨t.val * 5000 + p.val, by have := p.isLt; omega⟩, rfl⟩
  show k0_pay1 (iblk0 V c 0 t) (iblk0 V c 1 t) (iblk0 V c 2 t) (iblk0 V c 4 t) (iblk0 V c 3 t) (ix2 p q)
    = G (V c main_v14) (V c main_v4) (V c main_arg4) (V c main_arg6) (V c main_v15) (((cfg0.win 5).blk t).view.emb (ix2 p q))
  rw [out_at t p q r hr]
  refine (pay_entry (iblk0 V c 0 t) (iblk0 V c 1 t) (iblk0 V c 2 t) (iblk0 V c 4 t) (iblk0 V c 3 t) p q).trans ?_
  exact congrArg (max · 0) (affine_congr (iblk0 V c 0 t) (iblk0 V c 1 t) (V c main_v14) (V c main_v4)
    (iblk0 V c 2 t) (iblk0 V c 4 t) (V c main_arg4) (V c main_arg6)
    (fun q => iblk0 V c 3 t (ix2 0 q)) (fun q => (V c main_v15 : S1x32.Idx → EReal) (ix2 0 q)) p r q
    (fun k => agg_at V c t p k r hr) (fun k => feat_at V c t p k r hr)
    (fun k => wrel_at V c t k q) (fun k => wroot_at V c t k q) (bias_at V c t q))

/-- An index of the output array is in point `t`'s block iff each coordinate is in the block's range on its axis. -/
theorem mem_blk (t : Fin cfg0.N) (i : S100000x32.Idx) :
    i ∈ ((cfg0.win 5).blk t).view.set ↔ ∀ a : Fin 2, win0_5.index t a * S5000x32.size a ≤ (i a).val ∧ (i a).val < win0_5.index t a * S5000x32.size a + S5000x32.size a := by
  show i ∈ ((View.whole main_v16).slice (win0_5.rect t)).set ↔ _
  rw [View.set_slice_whole, Rect.mem_set_unit]
  exact Iff.rfl

/-- Row `r` of the output lies in block `r / 5000`: the 20 blocks cover the array. -/
theorem cover (i : S100000x32.Idx) : ∃ t : Fin cfg0.N, (cfg0.win 5).flush t = true ∧ i ∈ ((cfg0.win 5).blk t).view.set := by
  have hi0 : (i 0).val < 100000 := (i 0).isLt
  have hi1 : (i 1).val < 32 := (i 1).isLt
  have hN : grid0.N = 20 := N_0
  obtain ⟨t, ht⟩ : ∃ t : Fin cfg0.N, t.val = (i 0).val / 5000 := ⟨⟨(i 0).val / 5000, by show _ < grid0.N; omega⟩, rfl⟩
  obtain ⟨-, -, -, -, -, -, -, -, -, -, e0, e1⟩ := idx_facts t
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 32 ≤ (i 1).val ∧ (i 1).val < win0_5.index t (1 : Fin 2) * 32 + 32; omega

/-- The output array after the region is the layer's function of the arrays the region finds. -/
theorem final (c : Dev nD) :
    (dat0 V c).arrAt 5 cfg0.N = G (V c main_v14) (V c main_v4) (V c main_arg4) (V c main_arg6) (V c main_v15) :=
  (dat0 V c).arrAt_eq_of_cover 5 _ (fun t _ => flushed_eq V c t) cover

end Cert.KernelIdeal.Layer0

end
-- ==== Proof.Layer1.lean ====
/-
  The second layer's region: what its output array holds after the run.

  The region tiles the 100000 node rows into 20 blocks of 5000. At block `t` the body reads rows
  `5000·t … 5000·t + 4999` of the aggregated features and of the node features, both weight matrices whole and
  the bias row, and stores `max(A·W + H·W' + bias, 0)` for those rows. An entry of a matrix product depends on one
  row of the left operand only, so the stored block is the same rows of ONE whole-array function of the arrays the
  region finds, and the 20 blocks cover the output array.
-/
import proofs.«137055_j88098369176052_1_alg».proof.Proof.Gen.KernelIdeal.Frame
import proofs.«137055_j88098369176052_1_alg».proof.Proof.LibDenseEntry
import Idealize.ShloMosaic.Lib.Pipeline.Value
import Idealize.ShloMosaic.Lib.ValueIdx

noncomputable section

namespace Cert.KernelIdeal.Layer1

open Idealize.ShloMosaic Idealize.ShloMosaic.TcCoe Idealize.ShloMosaic.ValueIdx Idealize.SL.Sem
open Cert.KernelIdeal Cert.KernelIdeal.Gen Cert.LibDenseEntry

variable (V : (c : Dev nD) → (b : Ref sig .tc) → Buf (Elt Ideal) ((c : Thread nD τ).loc b))

/-- The layer as one function of whole arrays: `max(A·W + bias + H·W', 0)`, entry by entry. -/
def G (A H : S100000x48.Idx → EReal) (W W' : S48x48.Idx → EReal) (b : S1x48.Idx → EReal) : S100000x48.Idx → EReal :=
  fun i => max (affine A H W W' (fun q => b (ix2 0 q)) (i 0) (i 1)) 0

theorem hz : (![0, 0] : Fin 2 → Nat) = fun _ => 0 := funext fun a => by fin_cases a <;> rfl

/-- The body's stored value at an entry of the block. -/
theorem pay_entry (x0 x1 : Vec Ideal S5000x48 .f32) (w w' : Vec Ideal S48x48 .f32) (b : Vec Ideal S1x48 .f32)
    (p : Fin 5000) (q : Fin 48) :
    k1_pay1 x0 x1 w w' b (ix2 p q) = max (affine x0 x1 w w' (fun q => b (ix2 0 q)) p q) 0 := by
  unfold k1_pay1
  refine congrArg₂ max ((kernel_entry dot_S5000x48_S48x48_S5000x48_1_0_0_1_n_n rfl rfl rfl rfl rfl rfl x0 x1 w w' b
    shapeCasts_S5000x48_S5000x48 shapeCasts_S1x48_S1x48 broadcasts_S1x48_S5000x48 bitsLt_bf16_f32 p q).trans
    (products_then_bias x0 x1 w w' (fun q => b (ix2 0 q)) p q)) ?_
  exact Ideal.ofBits_zero_f32

/-- Where each window's block sits at point `t`: the row-blocked windows at block row `t`, the weights and the bias at
    their one block. Decided over the 20 points. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of the aggregated features' block at `t` is row `5000·t + p` of the array. -/
theorem agg_at (c : Dev nD) (t : Fin cfg1.N) (p : Fin 5000) (k : Fin 48) (r : Fin 100000) (hr : r.val = t.val * 5000 + p.val) :
    iblk1 V c 0 t (ix2 p k) = (V c main_v27 : S100000x48.Idx → EReal) (ix2 r k) := by
  obtain ⟨e0, e1, -⟩ := idx_facts t
  show (V c main_v27 : S100000x48.Idx → EReal) (((cfg1.win 0).blk t).view.emb (ix2 p k)) = _
  refine congrArg (V c main_v27 : S100000x48.Idx → EReal) (funext fun a => Fin.ext ?_)
  match a with
  | ⟨0, _⟩ => show win1_0.index t (0 : Fin 2) * 5000 + 1 * p.val = r.val; omega
  | ⟨1, _⟩ => show win1_0.index t (1 : Fin 2) * 48 + 1 * k.val = k.val; omega

/-- Row `p` of the node features' block at `t` is row `5000·t + p` of the array. -/
theorem feat_at (c : Dev nD) (t : Fin cfg1.N) (p : Fin 5000) (k : Fin 48) (r : Fin 100000) (hr : r.val = t.val * 5000 + p.val) :
    iblk1 V c 1 t (ix2 p k) = (V c main_v17 : S100000x48.Idx → EReal) (ix2 r k) := by
  obtain ⟨-, -, e0, e1, -⟩ := idx_facts t
  show (V c main_v17 : S100000x48.Idx → EReal) (((cfg1.win 1).blk t).view.emb (ix2 p k)) = _
  refine congrArg (V c main_v17 : S100000x48.Idx → EReal) (funext fun a => Fin.ext ?_)
  match a with
  | ⟨0, _⟩ => show win1_1.index t (0 : Fin 2) * 5000 + 1 * p.val = r.val; omega
  | ⟨1, _⟩ => show win1_1.index t (1 : Fin 2) * 48 + 1 * k.val = k.val; omega

/-- The first weight matrix's block is the whole matrix. -/
theorem wrel_at (c : Dev nD) (t : Fin cfg1.N) (k : Fin 48) (q : Fin 48) :
    iblk1 V c 2 t (ix2 k q) = (V c main_arg7 : S48x48.Idx → EReal) (ix2 k q) := by
  obtain ⟨-, -, -, -, e0, e1, -⟩ := idx_facts t
  show (V c main_arg7 : S48x48.Idx → EReal) (((cfg1.win 2).blk t).view.emb (ix2 k q)) = _
  refine congrArg (V c main_arg7 : S48x48.Idx → EReal) (funext fun a => Fin.ext ?_)
  match a with
  | ⟨0, _⟩ => show win1_2.index t (0 : Fin 2) * 48 + 1 * k.val = k.val; omega
  | ⟨1, _⟩ => show win1_2.index t (1 : Fin 2) * 48 + 1 * q.val = q.val; omega

/-- The bias row's block is the whole row. -/
theorem bias_at (c : Dev nD) (t : Fin cfg1.N) (q : Fin 48) :
    iblk1 V c 3 t (ix2 0 q) = (V c main_v28 : S1x48.Idx → EReal) (ix2 0 q) := by
  obtain ⟨-, -, -, -, -, -, e0, e1, -⟩ := idx_facts t
  show (V c main_v28 : S1x48.Idx → EReal) (((cfg1.win 3).blk t).view.emb (ix2 0 q)) = _
  refine congrArg (V c main_v28 : S1x48.Idx → EReal) (funext fun a => Fin.ext ?_)
  match a with
  | ⟨0, _⟩ => show win1_3.index t (0 : Fin 2) * 1 + 1 * 0 = 0; omega
  | ⟨1, _⟩ => show win1_3.index t (1 : Fin 2) * 48 + 1 * q.val = q.val; omega

/-- The second weight matrix's block is the whole matrix. -/
theorem wroot_at (c : Dev nD) (t : Fin cfg1.N) (k : Fin 48) (q : Fin 48) :
    iblk1 V c 4 t (ix2 k q) = (V c main_arg9 : S48x48.Idx → EReal) (ix2 k q) := by
  obtain ⟨-, -, -, -, -, -, -, -, e0, e1, -⟩ := idx_facts t
  show (V c main_arg9 : S48x48.Idx → EReal) (((cfg1.win 4).blk t).view.emb (ix2 k q)) = _
  refine congrArg (V c main_arg9 : S48x48.Idx → EReal) (funext fun a => Fin.ext ?_)
  match a with
  | ⟨0, _⟩ => show win1_4.index t (0 : Fin 2) * 48 + 1 * k.val = k.val; omega
  | ⟨1, _⟩ => show win1_4.index t (1 : Fin 2) * 48 + 1 * q.val = q.val; omega

/-- Entry `(p, q)` of the output block at `t` is entry `(5000·t + p, q)` of the output array. -/
theorem out_at (t : Fin cfg1.N) (p : Fin 5000) (q : Fin 48) (r : Fin 100000) (hr : r.val = t.val * 5000 + p.val) :
    ((cfg1.win 5).blk t).view.emb (ix2 p q) = (ix2 r q : S100000x48.Idx) := by
  obtain ⟨-, -, -, -, -, -, -, -, -, -, e0, e1⟩ := idx_facts t
  refine funext fun a => Fin.ext ?_
  match a with
  | ⟨0, _⟩ => show win1_5.index t (0 : Fin 2) * 5000 + 1 * p.val = r.val; omega
  | ⟨1, _⟩ => show win1_5.index t (1 : Fin 2) * 48 + 1 * q.val = q.val; omega

/-- What point `t` writes back is block `t` of the layer's whole-array function of the arrays the region finds. -/
theorem flushed_eq (c : Dev nD) (t : Fin cfg1.N) :
    (dat1 V c).flushed 5 t = ((cfg1.win 5).blk t).view.read (Elt Ideal)
      (G (V c main_v27) (V c main_v17) (V c main_arg7) (V c main_arg9) (V c main_v28)) := by
  show (cfg1.win 5).cut (grid1.coords t) ((dat1 V c).after 5 t) = _
  rw [after1_5]
  unfold out1_5
  rw [View.canon_unit_zero hz]
  simp only [View.ld_unit_zero (S := S5000x48) hz, View.ld_unit_zero (S := S48x48) hz, View.ld_unit_zero (S := S1x48) hz]
  funext j
  obtain ⟨p, q, rfl⟩ : ∃ (p : Fin 5000) (q : Fin 48), j = ix2 p q := ⟨j 0, j 1, eq_ix2 j⟩
  have hN : grid1.N = 20 := N_1
  have ht : t.val < 20 := hN ▸ t.isLt
  obtain ⟨r, hr⟩ : ∃ r : Fin 100000, r.val = t.val * 5000 + p.val := ⟨⟨t.val * 5000 + p.val, by have := p.isLt; omega⟩, rfl⟩
  show k1_pay1 (iblk1 V c 0 t) (iblk1 V c 1 t) (iblk1 V c 2 t) (iblk1 V c 4 t) (iblk1 V c 3 t) (ix2 p q)
    = G (V c main_v27) (V c main_v17) (V c main_arg7) (V c main_arg9) (V c main_v28) (((cfg1.win 5).blk t).view.emb (ix2 p q))
  rw [out_at t p q r hr]
  refine (pay_entry (iblk1 V c 0 t) (iblk1 V c 1 t) (iblk1 V c 2 t) (iblk1 V c 4 t) (iblk1 V c 3 t) p q).trans ?_
  exact congrArg (max · 0) (affine_congr (iblk1 V c 0 t) (iblk1 V c 1 t) (V c main_v27) (V c main_v17)
    (iblk1 V c 2 t) (iblk1 V c 4 t) (V c main_arg7) (V c main_arg9)
    (fun q => iblk1 V c 3 t (ix2 0 q)) (fun q => (V c main_v28 : S1x48.Idx → EReal) (ix2 0 q)) p r q
    (fun k => agg_at V c t p k r hr) (fun k => feat_at V c t p k r hr)
    (fun k => wrel_at V c t k q) (fun k => wroot_at V c t k q) (bias_at V c t q))

/-- An index of the output array is in point `t`'s block iff each coordinate is in the block's range on its axis. -/
theorem mem_blk (t : Fin cfg1.N) (i : S100000x48.Idx) :
    i ∈ ((cfg1.win 5).blk t).view.set ↔ ∀ a : Fin 2, win1_5.index t a * S5000x48.size a ≤ (i a).val ∧ (i a).val < win1_5.index t a * S5000x48.size a + S5000x48.size a := by
  show i ∈ ((View.whole main_v29).slice (win1_5.rect t)).set ↔ _
  rw [View.set_slice_whole, Rect.mem_set_unit]
  exact Iff.rfl

/-- Row `r` of the output lies in block `r / 5000`: the 20 blocks cover the array. -/
theorem cover (i : S100000x48.Idx) : ∃ t : Fin cfg1.N, (cfg1.win 5).flush t = true ∧ i ∈ ((cfg1.win 5).blk t).view.set := by
  have hi0 : (i 0).val < 100000 := (i 0).isLt
  have hi1 : (i 1).val < 48 := (i 1).isLt
  have hN : grid1.N = 20 := N_1
  obtain ⟨t, ht⟩ : ∃ t : Fin cfg1.N, t.val = (i 0).val / 5000 := ⟨⟨(i 0).val / 5000, by show _ < grid1.N; omega⟩, rfl⟩
  obtain ⟨-, -, -, -, -, -, -, -, -, -, e0, e1⟩ := idx_facts t
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 48 ≤ (i 1).val ∧ (i 1).val < win1_5.index t (1 : Fin 2) * 48 + 48; omega

/-- The output array after the region is the layer's function of the arrays the region finds. -/
theorem final (c : Dev nD) :
    (dat1 V c).arrAt 5 cfg1.N = G (V c main_v27) (V c main_v17) (V c main_arg7) (V c main_arg9) (V c main_v28) :=
  (dat1 V c).arrAt_eq_of_cover 5 _ (fun t _ => flushed_eq V c t) cover

end Cert.KernelIdeal.Layer1

end
-- ==== Proof.Layer2.lean ====
/-
  The last layer's region: what its output array holds after the run.

  The region tiles the 100000 node rows into 20 blocks of 5000. At block `t` the body reads rows
  `5000·t … 5000·t + 4999` of the aggregated features and of the node features, both weight matrices whole and
  the bias row and the same rows of the extra features `X`, and stores `A·W + H·W' + bias + X` for those rows. An entry of a matrix product depends on one
  row of the left operand only, so the stored block is the same rows of ONE whole-array function of the arrays the
  region finds, and the 20 blocks cover the output array.
-/
import proofs.«137055_j88098369176052_1_alg».proof.Proof.Gen.KernelIdeal.Frame
import proofs.«137055_j88098369176052_1_alg».proof.Proof.LibDenseEntry
import Idealize.ShloMosaic.Lib.Pipeline.Value
import Idealize.ShloMosaic.Lib.ValueIdx

noncomputable section

namespace Cert.KernelIdeal.Layer2

open Idealize.ShloMosaic Idealize.ShloMosaic.TcCoe Idealize.ShloMosaic.ValueIdx Idealize.SL.Sem
open Cert.KernelIdeal Cert.KernelIdeal.Gen Cert.LibDenseEntry

variable (V : (c : Dev nD) → (b : Ref sig .tc) → Buf (Elt Ideal) ((c : Thread nD τ).loc b))

/-- The layer as one function of whole arrays: `A·W + bias + H·W' + X`, entry by entry. -/
def G (A H : S100000x48.Idx → EReal) (W W' : S48x16.Idx → EReal) (b : S1x16.Idx → EReal) (X : S100000x16.Idx → EReal) :
    S100000x16.Idx → EReal :=
  fun i => affine A H W W' (fun q => b (ix2 0 q)) (i 0) (i 1) + X i

theorem hz : (![0, 0] : Fin 2 → Nat) = fun _ => 0 := funext fun a => by fin_cases a <;> rfl

/-- The body's stored value at an entry of the block. -/
theorem pay_entry (x0 x1 : Vec Ideal S5000x48 .f32) (w w' : Vec Ideal S48x16 .f32) (b : Vec Ideal S1x16 .f32)
    (x5 : Vec Ideal S5000x16 .f32) (p : Fin 5000) (q : Fin 16) :
    k2_pay1 x0 x1 w w' b x5 (ix2 p q) = affine x0 x1 w w' (fun q => b (ix2 0 q)) p q + x5 (ix2 p q) := by
  unfold k2_pay1
  refine congrArg₂ (· + ·) ((kernel_entry dot_S5000x48_S48x16_S5000x16_1_0_0_1_n_n rfl rfl rfl rfl rfl rfl x0 x1 w w' b
    shapeCasts_S5000x48_S5000x48 shapeCasts_S1x16_S1x16 broadcasts_S1x16_S5000x16 bitsLt_bf16_f32 p q).trans
    (products_then_bias x0 x1 w w' (fun q => b (ix2 0 q)) p q)) rfl

/-- Where each window's block sits at point `t`: the row-blocked windows at block row `t`, the weights and the bias at
    their one block. Decided over the 20 points. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- Row `p` of the aggregated features' block at `t` is row `5000·t + p` of the array. -/
theorem agg_at (c : Dev nD) (t : Fin cfg2.N) (p : Fin 5000) (k : Fin 48) (r : Fin 100000) (hr : r.val = t.val * 5000 + p.val) :
    iblk2 V c 0 t (ix2 p k) = (V c main_v39 : S100000x48.Idx → EReal) (ix2 r k) := by
  obtain ⟨e0, e1, -⟩ := idx_facts t
  show (V c main_v39 : S100000x48.Idx → EReal) (((cfg2.win 0).blk t).view.emb (ix2 p k)) = _
  refine congrArg (V c main_v39 : S100000x48.Idx → EReal) (funext fun a => Fin.ext ?_)
  match a with
  | ⟨0, _⟩ => show win2_0.index t (0 : Fin 2) * 5000 + 1 * p.val = r.val; omega
  | ⟨1, _⟩ => show win2_0.index t (1 : Fin 2) * 48 + 1 * k.val = k.val; omega

/-- Row `p` of the node features' block at `t` is row `5000·t + p` of the array. -/
theorem feat_at (c : Dev nD) (t : Fin cfg2.N) (p : Fin 5000) (k : Fin 48) (r : Fin 100000) (hr : r.val = t.val * 5000 + p.val) :
    iblk2 V c 1 t (ix2 p k) = (V c main_v29 : S100000x48.Idx → EReal) (ix2 r k) := by
  obtain ⟨-, -, e0, e1, -⟩ := idx_facts t
  show (V c main_v29 : S100000x48.Idx → EReal) (((cfg2.win 1).blk t).view.emb (ix2 p k)) = _
  refine congrArg (V c main_v29 : S100000x48.Idx → EReal) (funext fun a => Fin.ext ?_)
  match a with
  | ⟨0, _⟩ => show win2_1.index t (0 : Fin 2) * 5000 + 1 * p.val = r.val; omega
  | ⟨1, _⟩ => show win2_1.index t (1 : Fin 2) * 48 + 1 * k.val = k.val; omega

/-- The first weight matrix's block is the whole matrix. -/
theorem wrel_at (c : Dev nD) (t : Fin cfg2.N) (k : Fin 48) (q : Fin 16) :
    iblk2 V c 2 t (ix2 k q) = (V c main_arg10 : S48x16.Idx → EReal) (ix2 k q) := by
  obtain ⟨-, -, -, -, e0, e1, -⟩ := idx_facts t
  show (V c main_arg10 : S48x16.Idx → EReal) (((cfg2.win 2).blk t).view.emb (ix2 k q)) = _
  refine congrArg (V c main_arg10 : S48x16.Idx → EReal) (funext fun a => Fin.ext ?_)
  match a with
  | ⟨0, _⟩ => show win2_2.index t (0 : Fin 2) * 48 + 1 * k.val = k.val; omega
  | ⟨1, _⟩ => show win2_2.index t (1 : Fin 2) * 16 + 1 * q.val = q.val; omega

/-- The bias row's block is the whole row. -/
theorem bias_at (c : Dev nD) (t : Fin cfg2.N) (q : Fin 16) :
    iblk2 V c 3 t (ix2 0 q) = (V c main_v40 : S1x16.Idx → EReal) (ix2 0 q) := by
  obtain ⟨-, -, -, -, -, -, e0, e1, -⟩ := idx_facts t
  show (V c main_v40 : S1x16.Idx → EReal) (((cfg2.win 3).blk t).view.emb (ix2 0 q)) = _
  refine congrArg (V c main_v40 : S1x16.Idx → EReal) (funext fun a => Fin.ext ?_)
  match a with
  | ⟨0, _⟩ => show win2_3.index t (0 : Fin 2) * 1 + 1 * 0 = 0; omega
  | ⟨1, _⟩ => show win2_3.index t (1 : Fin 2) * 16 + 1 * q.val = q.val; omega

/-- The second weight matrix's block is the whole matrix. -/
theorem wroot_at (c : Dev nD) (t : Fin cfg2.N) (k : Fin 48) (q : Fin 16) :
    iblk2 V c 4 t (ix2 k q) = (V c main_arg12 : S48x16.Idx → EReal) (ix2 k q) := by
  obtain ⟨-, -, -, -, -, -, -, -, e0, e1, -⟩ := idx_facts t
  show (V c main_arg12 : S48x16.Idx → EReal) (((cfg2.win 4).blk t).view.emb (ix2 k q)) = _
  refine congrArg (V c main_arg12 : S48x16.Idx → EReal) (funext fun a => Fin.ext ?_)
  match a with
  | ⟨0, _⟩ => show win2_4.index t (0 : Fin 2) * 48 + 1 * k.val = k.val; omega
  | ⟨1, _⟩ => show win2_4.index t (1 : Fin 2) * 16 + 1 * q.val = q.val; omega

/-- Row `p` of the extra features' block at `t` is row `5000·t + p` of the array. -/
theorem extra_at (c : Dev nD) (t : Fin cfg2.N) (p : Fin 5000) (q : Fin 16) (r : Fin 100000) (hr : r.val = t.val * 5000 + p.val) :
    iblk2 V c 5 t (ix2 p q) = (V c main_arg2 : S100000x16.Idx → EReal) (ix2 r q) := by
  obtain ⟨-, -, -, -, -, -, -, -, -, -, e0, e1, -⟩ := idx_facts t
  show (V c main_arg2 : S100000x16.Idx → EReal) (((cfg2.win 5).blk t).view.emb (ix2 p q)) = _
  refine congrArg (V c main_arg2 : S100000x16.Idx → EReal) (funext fun a => Fin.ext ?_)
  match a with
  | ⟨0, _⟩ => show win2_5.index t (0 : Fin 2) * 5000 + 1 * p.val = r.val; omega
  | ⟨1, _⟩ => show win2_5.index t (1 : Fin 2) * 16 + 1 * q.val = q.val; omega

/-- Entry `(p, q)` of the output block at `t` is entry `(5000·t + p, q)` of the output array. -/
theorem out_at (t : Fin cfg2.N) (p : Fin 5000) (q : Fin 16) (r : Fin 100000) (hr : r.val = t.val * 5000 + p.val) :
    ((cfg2.win 6).blk t).view.emb (ix2 p q) = (ix2 r q : S100000x16.Idx) := by
  obtain ⟨-, -, -, -, -, -, -, -, -, -, -, -, e0, e1⟩ := idx_facts t
  refine funext fun a => Fin.ext ?_
  match a with
  | ⟨0, _⟩ => show win2_6.index t (0 : Fin 2) * 5000 + 1 * p.val = r.val; omega
  | ⟨1, _⟩ => show win2_6.index t (1 : Fin 2) * 16 + 1 * q.val = q.val; omega

/-- What point `t` writes back is block `t` of the layer's whole-array function of the arrays the region finds. -/
theorem flushed_eq (c : Dev nD) (t : Fin cfg2.N) :
    (dat2 V c).flushed 6 t = ((cfg2.win 6).blk t).view.read (Elt Ideal)
      (G (V c main_v39) (V c main_v29) (V c main_arg10) (V c main_arg12) (V c main_v40) (V c main_arg2)) := by
  show (cfg2.win 6).cut (grid2.coords t) ((dat2 V c).after 6 t) = _
  rw [after2_6]
  unfold out2_6
  rw [View.canon_unit_zero hz]
  simp only [View.ld_unit_zero (S := S5000x48) hz, View.ld_unit_zero (S := S48x16) hz, View.ld_unit_zero (S := S1x16) hz, View.ld_unit_zero (S := S5000x16) hz]
  funext j
  obtain ⟨p, q, rfl⟩ : ∃ (p : Fin 5000) (q : Fin 16), j = ix2 p q := ⟨j 0, j 1, eq_ix2 j⟩
  have hN : grid2.N = 20 := N_2
  have ht : t.val < 20 := hN ▸ t.isLt
  obtain ⟨r, hr⟩ : ∃ r : Fin 100000, r.val = t.val * 5000 + p.val := ⟨⟨t.val * 5000 + p.val, by have := p.isLt; omega⟩, rfl⟩
  show k2_pay1 (iblk2 V c 0 t) (iblk2 V c 1 t) (iblk2 V c 2 t) (iblk2 V c 4 t) (iblk2 V c 3 t) (iblk2 V c 5 t) (ix2 p q)
    = G (V c main_v39) (V c main_v29) (V c main_arg10) (V c main_arg12) (V c main_v40) (V c main_arg2) (((cfg2.win 6).blk t).view.emb (ix2 p q))
  rw [out_at t p q r hr]
  refine (pay_entry (iblk2 V c 0 t) (iblk2 V c 1 t) (iblk2 V c 2 t) (iblk2 V c 4 t) (iblk2 V c 3 t) (iblk2 V c 5 t) p q).trans ?_
  exact congrArg₂ (· + ·) (affine_congr (iblk2 V c 0 t) (iblk2 V c 1 t) (V c main_v39) (V c main_v29)
    (iblk2 V c 2 t) (iblk2 V c 4 t) (V c main_arg10) (V c main_arg12)
    (fun q => iblk2 V c 3 t (ix2 0 q)) (fun q => (V c main_v40 : S1x16.Idx → EReal) (ix2 0 q)) p r q
    (fun k => agg_at V c t p k r hr) (fun k => feat_at V c t p k r hr)
    (fun k => wrel_at V c t k q) (fun k => wroot_at V c t k q) (bias_at V c t q)) (extra_at V c t p q r hr)

/-- An index of the output array is in point `t`'s block iff each coordinate is in the block's range on its axis. -/
theorem mem_blk (t : Fin cfg2.N) (i : S100000x16.Idx) :
    i ∈ ((cfg2.win 6).blk t).view.set ↔ ∀ a : Fin 2, win2_6.index t a * S5000x16.size a ≤ (i a).val ∧ (i a).val < win2_6.index t a * S5000x16.size a + S5000x16.size a := by
  show i ∈ ((View.whole main_v41).slice (win2_6.rect t)).set ↔ _
  rw [View.set_slice_whole, Rect.mem_set_unit]
  exact Iff.rfl

/-- Row `r` of the output lies in block `r / 5000`: the 20 blocks cover the array. -/
theorem cover (i : S100000x16.Idx) : ∃ t : Fin cfg2.N, (cfg2.win 6).flush t = true ∧ i ∈ ((cfg2.win 6).blk t).view.set := by
  have hi0 : (i 0).val < 100000 := (i 0).isLt
  have hi1 : (i 1).val < 16 := (i 1).isLt
  have hN : grid2.N = 20 := N_2
  obtain ⟨t, ht⟩ : ∃ t : Fin cfg2.N, t.val = (i 0).val / 5000 := ⟨⟨(i 0).val / 5000, by show _ < grid2.N; omega⟩, rfl⟩
  obtain ⟨-, -, -, -, -, -, -, -, -, -, -, -, e0, e1⟩ := idx_facts t
  refine ⟨t, flush2_6 t, ?_⟩
  rw [mem_blk]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 16 ≤ (i 1).val ∧ (i 1).val < win2_6.index t (1 : Fin 2) * 16 + 16; omega

/-- The output array after the region is the layer's function of the arrays the region finds. -/
theorem final (c : Dev nD) :
    (dat2 V c).arrAt 6 cfg2.N = G (V c main_v39) (V c main_v29) (V c main_arg10) (V c main_arg12) (V c main_v40) (V c main_arg2) :=
  (dat2 V c).arrAt_eq_of_cover 6 _ (fun t _ => flushed_eq V c t) cover

end Cert.KernelIdeal.Layer2

end
-- ==== Proof.KernelChain.lean ====
/-
  The idealized kernel program's result as one function of its thirteen arguments.

  Between the regions the host operations are the same on both sides of the claim: an endpoint row of the edge list
  is cut out and flattened, negative endpoints are wrapped by the node count, the rows of the current features at
  the source endpoints are gathered and added into a zero array at the destination endpoints. Those stretches are
  named here as functions (`endpoint0`, `endpoint1`, `wrapCol`, `agg64`, `agg48`, the two concatenations, a bias vector
  as a row) and never opened. Each region's output is its layer's whole-array function of what the region finds
  (the three layer modules), so the buffers at each boundary are read in order: the first hidden features, the
  second, and the result.
-/
import proofs.«137055_j88098369176052_1_alg».proof.Proof.Gen.KernelIdeal.Frame
import proofs.«137055_j88098369176052_1_alg».proof.Proof.Layer0
import proofs.«137055_j88098369176052_1_alg».proof.Proof.Layer1
import proofs.«137055_j88098369176052_1_alg».proof.Proof.Layer2
import Idealize.ShloMosaic.Lib.StableHlo.Run

noncomputable section

namespace Cert.KernelIdeal.Chain

open Idealize.ShloMosaic Idealize.ShloMosaic.TcCoe Idealize.ShloMosaic.ValueIdx Idealize.SL.Sem Idealize.ShloMosaic.StableHlo
open Cert.KernelIdeal Cert.KernelIdeal.Gen

/-- An integer array's contents at the extended-real reading. -/
abbrev I32 (s : Shape) : Type := (⟨s, .i32⟩ : BufTy).Contents (Elt Ideal)
/-- A float array's contents at the extended-real reading. -/
abbrev F32 (s : Shape) : Type := (⟨s, .f32⟩ : BufTy).Contents (Elt Ideal)

/-! ## The host stretches, as functions -/

/-- Row 0 of the edge list (the source endpoints), flattened. -/
def endpoint0 (e : I32 S2x1600000) : I32 S1600000 :=
  shapeCast S1600000 (extractStridedSlice S1x1600000 ![0, 0] e slices_S2x1600000_S1x1600000_0_0) shapeCasts_S1x1600000_S1600000
/-- Row 1 of the edge list (the destination endpoints), flattened. -/
def endpoint1 (e : I32 S2x1600000) : I32 S1600000 :=
  shapeCast S1600000 (extractStridedSlice S1x1600000 ![1, 0] e slices_S2x1600000_S1x1600000_1_0) shapeCasts_S1x1600000_S1600000

/-- Endpoints as a column of gather indices, a negative one wrapped by the node count. -/
def wrapCol (s : I32 S1600000) : I32 S1600000x1 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- Neighbour aggregation of 64-wide features: rows gathered at the sources, added into zeros at the destinations. -/
def agg64 (h : F32 S100000x64) (src dst : I32 S1600000) : F32 S100000x64 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164 h (wrapCol src))

/-- Neighbour aggregation of 48-wide features. -/
def agg48 (h : F32 S100000x48) (src dst : I32 S1600000) : F32 S100000x48 :=
  Host.scatterAdd scatter_S100000x48_S1600000x1_S1600000x48_1_0_0_1
    (broadcastInDim S100000x48 ![] bcast_S_S100000x48 (constant (F := Ideal) S_ .f32 0x00000000#32))
    (broadcastInDim S1600000x1 ![0] bcast_S1600000_S1600000x1_0 dst)
    (Host.gather gather_S100000x48_S1600000x1_S1600000x48_1_0_n_n_0_1_148 h (wrapCol src))

/-- The input features beside the additional ones. -/
def cat64 (a : F32 S100000x48) (b : F32 S100000x16) : F32 S100000x64 :=
  concatenate S100000x64 1 [⟨S100000x48, a⟩, ⟨S100000x16, b⟩] concatenates_S100000x48_S100000x16_S100000x64_d1
/-- The first hidden features beside the embedding. -/
def cat48 (a : F32 S100000x32) (b : F32 S100000x16) : F32 S100000x48 :=
  concatenate S100000x48 1 [⟨S100000x32, a⟩, ⟨S100000x16, b⟩] concatenates_S100000x32_S100000x16_S100000x48_d1

/-- A bias vector as a one-row matrix. -/
def row32 (b : F32 S32) : F32 S1x32 := shapeCast S1x32 b shapeCasts_S32_S1x32
def row48 (b : F32 S48) : F32 S1x48 := shapeCast S1x48 b shapeCasts_S48_S1x48
def row16 (b : F32 S16) : F32 S1x16 := shapeCast S1x16 b shapeCasts_S16_S1x16

/-! ## The three layers over them -/

/-- The first hidden features. -/
def hidden1 (x0 : F32 S100000x48) (x1 : I32 S2x1600000) (x2 : F32 S100000x16) (x4 : F32 S64x32) (x5 : F32 S32) (x6 : F32 S64x32) :
    F32 S100000x32 :=
  Layer0.G (agg64 (cat64 x0 x2) (endpoint0 x1) (endpoint1 x1)) (cat64 x0 x2) x4 x6 (row32 x5)

/-- The second hidden features. -/
def hidden2 (x0 : F32 S100000x48) (x1 : I32 S2x1600000) (x2 x3 : F32 S100000x16) (x4 : F32 S64x32) (x5 : F32 S32) (x6 : F32 S64x32)
    (x7 : F32 S48x48) (x8 : F32 S48) (x9 : F32 S48x48) : F32 S100000x48 :=
  Layer1.G (agg48 (cat48 (hidden1 x0 x1 x2 x4 x5 x6) x3) (endpoint0 x1) (endpoint1 x1)) (cat48 (hidden1 x0 x1 x2 x4 x5 x6) x3) x7 x9 (row48 x8)

/-- The program's result. -/
def net (x0 : F32 S100000x48) (x1 : I32 S2x1600000) (x2 x3 : F32 S100000x16) (x4 : F32 S64x32) (x5 : F32 S32) (x6 : F32 S64x32)
    (x7 : F32 S48x48) (x8 : F32 S48) (x9 : F32 S48x48) (x10 : F32 S48x16) (x11 : F32 S16) (x12 : F32 S48x16) : F32 S100000x16 :=
  Layer2.G (agg48 (hidden2 x0 x1 x2 x3 x4 x5 x6 x7 x8 x9) (endpoint0 x1) (endpoint1 x1)) (hidden2 x0 x1 x2 x3 x4 x5 x6 x7 x8 x9)
    x10 x12 (row16 x11) x2

/-! ## The buffers at each boundary -/

variable (m : (ℓ : Loc nD τ sig) → Buf (Elt Ideal) ℓ) (ρ : Dev nD → PrngReg) (c : Dev nD)

/-! ### After the first host stretch -/
theorem w1_v1 : W1 m ρ c (Proc.devRef .tc main_v1) = (endpoint0 (m ((c : Thread nD τ).loc main_arg1))) := by
  show StableHlo.after hostOps0 (W0 m ρ c) (Proc.devRef .tc main_v1) = _
  dsimp only [hostOps0]
  after_results <;> rfl
theorem w1_v3 : W1 m ρ c (Proc.devRef .tc main_v3) = (endpoint1 (m ((c : Thread nD τ).loc main_arg1))) := by
  show StableHlo.after hostOps0 (W0 m ρ c) (Proc.devRef .tc main_v3) = _
  dsimp only [hostOps0]
  after_results <;> rfl
theorem w1_arg2 : W1 m ρ c (Proc.devRef .tc main_arg2) = (m ((c : Thread nD τ).loc main_arg2)) := by
  show StableHlo.after hostOps0 (W0 m ρ c) (Proc.devRef .tc main_arg2) = _
  dsimp only [hostOps0]
  after_results <;> rfl
theorem w1_arg3 : W1 m ρ c (Proc.devRef .tc main_arg3) = (m ((c : Thread nD τ).loc main_arg3)) := by
  show StableHlo.after hostOps0 (W0 m ρ c) (Proc.devRef .tc main_arg3) = _
  dsimp only [hostOps0]
  after_results <;> rfl
theorem w1_arg7 : W1 m ρ c (Proc.devRef .tc main_arg7) = (m ((c : Thread nD τ).loc main_arg7)) := by
  show StableHlo.after hostOps0 (W0 m ρ c) (Proc.devRef .tc main_arg7) = _
  dsimp only [hostOps0]
  after_results <;> rfl
theorem w1_arg8 : W1 m ρ c (Proc.devRef .tc main_arg8) = (m ((c : Thread nD τ).loc main_arg8)) := by
  show StableHlo.after hostOps0 (W0 m ρ c) (Proc.devRef .tc main_arg8) = _
  dsimp only [hostOps0]
  after_results <;> rfl
theorem w1_arg9 : W1 m ρ c (Proc.devRef .tc main_arg9) = (m ((c : Thread nD τ).loc main_arg9)) := by
  show StableHlo.after hostOps0 (W0 m ρ c) (Proc.devRef .tc main_arg9) = _
  dsimp only [hostOps0]
  after_results <;> rfl
theorem w1_arg10 : W1 m ρ c (Proc.devRef .tc main_arg10) = (m ((c : Thread nD τ).loc main_arg10)) := by
  show StableHlo.after hostOps0 (W0 m ρ c) (Proc.devRef .tc main_arg10) = _
  dsimp only [hostOps0]
  after_results <;> rfl
theorem w1_arg11 : W1 m ρ c (Proc.devRef .tc main_arg11) = (m ((c : Thread nD τ).loc main_arg11)) := by
  show StableHlo.after hostOps0 (W0 m ρ c) (Proc.devRef .tc main_arg11) = _
  dsimp only [hostOps0]
  after_results <;> rfl
theorem w1_arg12 : W1 m ρ c (Proc.devRef .tc main_arg12) = (m ((c : Thread nD τ).loc main_arg12)) := by
  show StableHlo.after hostOps0 (W0 m ρ c) (Proc.devRef .tc main_arg12) = _
  dsimp only [hostOps0]
  after_results <;> rfl
theorem v1_cat : V1 m ρ c main_v4 = cat64 (m ((c : Thread nD τ).loc main_arg0)) (m ((c : Thread nD τ).loc main_arg2)) := by
  show StableHlo.after hostOps0 (W0 m ρ c) (Proc.devRef .tc main_v4) = _
  dsimp only [hostOps0]
  after_results <;> rfl
set_option maxHeartbeats 4000000 in
theorem v1_agg : V1 m ρ c main_v14 = agg64 (cat64 (m ((c : Thread nD τ).loc main_arg0)) (m ((c : Thread nD τ).loc main_arg2))) (endpoint0 (m ((c : Thread nD τ).loc main_arg1))) (endpoint1 (m ((c : Thread nD τ).loc main_arg1))) := by
  show StableHlo.after hostOps0 (W0 m ρ c) (Proc.devRef .tc main_v14) = _
  dsimp only [hostOps0]
  after_results <;> rfl
theorem v1_row : V1 m ρ c main_v15 = row32 (m ((c : Thread nD τ).loc main_arg5)) := by
  show StableHlo.after hostOps0 (W0 m ρ c) (Proc.devRef .tc main_v15) = _
  dsimp only [hostOps0]
  after_results <;> rfl
theorem v1_arg4 : V1 m ρ c main_arg4 = (m ((c : Thread nD τ).loc main_arg4)) := by
  show StableHlo.after hostOps0 (W0 m ρ c) (Proc.devRef .tc main_arg4) = _
  dsimp only [hostOps0]
  after_results <;> rfl
theorem v1_arg6 : V1 m ρ c main_arg6 = (m ((c : Thread nD τ).loc main_arg6)) := by
  show StableHlo.after hostOps0 (W0 m ρ c) (Proc.devRef .tc main_arg6) = _
  dsimp only [hostOps0]
  after_results <;> rfl

/-! ### After the first region -/

/-- The first region leaves the first hidden features in its output array. -/
theorem w2_h1 : W2 m ρ c (Proc.devRef .tc main_v16) = (hidden1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6))) := by
  refine (W2_arr m ρ c 5).trans ((Layer0.final (V1 m ρ) c).trans ?_)
  rw [v1_agg, v1_cat, v1_row, v1_arg4, v1_arg6]
  rfl
theorem w2_v1 : W2 m ρ c (Proc.devRef .tc main_v1) = (endpoint0 (m ((c : Thread nD τ).loc main_arg1))) :=
  (W2_of_ne m ρ c main_v1 (by decide)).trans (w1_v1 m ρ c)
theorem w2_v3 : W2 m ρ c (Proc.devRef .tc main_v3) = (endpoint1 (m ((c : Thread nD τ).loc main_arg1))) :=
  (W2_of_ne m ρ c main_v3 (by decide)).trans (w1_v3 m ρ c)
theorem w2_arg2 : W2 m ρ c (Proc.devRef .tc main_arg2) = (m ((c : Thread nD τ).loc main_arg2)) :=
  (W2_of_ne m ρ c main_arg2 (by decide)).trans (w1_arg2 m ρ c)
theorem w2_arg3 : W2 m ρ c (Proc.devRef .tc main_arg3) = (m ((c : Thread nD τ).loc main_arg3)) :=
  (W2_of_ne m ρ c main_arg3 (by decide)).trans (w1_arg3 m ρ c)
theorem w2_arg7 : W2 m ρ c (Proc.devRef .tc main_arg7) = (m ((c : Thread nD τ).loc main_arg7)) :=
  (W2_of_ne m ρ c main_arg7 (by decide)).trans (w1_arg7 m ρ c)
theorem w2_arg8 : W2 m ρ c (Proc.devRef .tc main_arg8) = (m ((c : Thread nD τ).loc main_arg8)) :=
  (W2_of_ne m ρ c main_arg8 (by decide)).trans (w1_arg8 m ρ c)
theorem w2_arg9 : W2 m ρ c (Proc.devRef .tc main_arg9) = (m ((c : Thread nD τ).loc main_arg9)) :=
  (W2_of_ne m ρ c main_arg9 (by decide)).trans (w1_arg9 m ρ c)
theorem w2_arg10 : W2 m ρ c (Proc.devRef .tc main_arg10) = (m ((c : Thread nD τ).loc main_arg10)) :=
  (W2_of_ne m ρ c main_arg10 (by decide)).trans (w1_arg10 m ρ c)
theorem w2_arg11 : W2 m ρ c (Proc.devRef .tc main_arg11) = (m ((c : Thread nD τ).loc main_arg11)) :=
  (W2_of_ne m ρ c main_arg11 (by decide)).trans (w1_arg11 m ρ c)
theorem w2_arg12 : W2 m ρ c (Proc.devRef .tc main_arg12) = (m ((c : Thread nD τ).loc main_arg12)) :=
  (W2_of_ne m ρ c main_arg12 (by decide)).trans (w1_arg12 m ρ c)

/-! ### After the second host stretch -/
theorem w3_v1 : W3 m ρ c (Proc.devRef .tc main_v1) = (endpoint0 (m ((c : Thread nD τ).loc main_arg1))) := by
  show StableHlo.after hostOps1 (W2 m ρ c) (Proc.devRef .tc main_v1) = _
  dsimp only [hostOps1]
  after_results
  exact w2_v1 m ρ c
theorem w3_v3 : W3 m ρ c (Proc.devRef .tc main_v3) = (endpoint1 (m ((c : Thread nD τ).loc main_arg1))) := by
  show StableHlo.after hostOps1 (W2 m ρ c) (Proc.devRef .tc main_v3) = _
  dsimp only [hostOps1]
  after_results
  exact w2_v3 m ρ c
theorem w3_arg2 : W3 m ρ c (Proc.devRef .tc main_arg2) = (m ((c : Thread nD τ).loc main_arg2)) := by
  show StableHlo.after hostOps1 (W2 m ρ c) (Proc.devRef .tc main_arg2) = _
  dsimp only [hostOps1]
  after_results
  exact w2_arg2 m ρ c
theorem w3_arg10 : W3 m ρ c (Proc.devRef .tc main_arg10) = (m ((c : Thread nD τ).loc main_arg10)) := by
  show StableHlo.after hostOps1 (W2 m ρ c) (Proc.devRef .tc main_arg10) = _
  dsimp only [hostOps1]
  after_results
  exact w2_arg10 m ρ c
theorem w3_arg11 : W3 m ρ c (Proc.devRef .tc main_arg11) = (m ((c : Thread nD τ).loc main_arg11)) := by
  show StableHlo.after hostOps1 (W2 m ρ c) (Proc.devRef .tc main_arg11) = _
  dsimp only [hostOps1]
  after_results
  exact w2_arg11 m ρ c
theorem w3_arg12 : W3 m ρ c (Proc.devRef .tc main_arg12) = (m ((c : Thread nD τ).loc main_arg12)) := by
  show StableHlo.after hostOps1 (W2 m ρ c) (Proc.devRef .tc main_arg12) = _
  dsimp only [hostOps1]
  after_results
  exact w2_arg12 m ρ c
theorem v3_cat_raw : V3 m ρ c main_v17 = cat48 (W2 m ρ c (Proc.devRef .tc main_v16)) (W2 m ρ c (Proc.devRef .tc main_arg3)) := by
  show StableHlo.after hostOps1 (W2 m ρ c) (Proc.devRef .tc main_v17) = _
  dsimp only [hostOps1]
  after_results <;> rfl
theorem v3_cat : V3 m ρ c main_v17 = cat48 (hidden1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6))) (m ((c : Thread nD τ).loc main_arg3)) :=
  (v3_cat_raw m ρ c).trans (by rw [w2_h1, w2_arg3])
set_option maxHeartbeats 1000000 in
theorem v3_agg_raw : V3 m ρ c main_v27 = agg48 (cat48 (W2 m ρ c (Proc.devRef .tc main_v16)) (W2 m ρ c (Proc.devRef .tc main_arg3))) (W2 m ρ c (Proc.devRef .tc main_v1)) (W2 m ρ c (Proc.devRef .tc main_v3)) := by
  show StableHlo.after hostOps1 (W2 m ρ c) (Proc.devRef .tc main_v27) = _
  dsimp only [hostOps1]
  after_results <;> rfl
theorem v3_agg : V3 m ρ c main_v27 = agg48 (cat48 (hidden1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6))) (m ((c : Thread nD τ).loc main_arg3))) (endpoint0 (m ((c : Thread nD τ).loc main_arg1))) (endpoint1 (m ((c : Thread nD τ).loc main_arg1))) :=
  (v3_agg_raw m ρ c).trans (by rw [w2_h1, w2_arg3, w2_v1, w2_v3])
theorem v3_row_raw : V3 m ρ c main_v28 = row48 (W2 m ρ c (Proc.devRef .tc main_arg8)) := by
  show StableHlo.after hostOps1 (W2 m ρ c) (Proc.devRef .tc main_v28) = _
  dsimp only [hostOps1]
  after_results <;> rfl
theorem v3_row : V3 m ρ c main_v28 = row48 (m ((c : Thread nD τ).loc main_arg8)) :=
  (v3_row_raw m ρ c).trans (by rw [w2_arg8])
theorem v3_arg7_raw : V3 m ρ c main_arg7 = (W2 m ρ c (Proc.devRef .tc main_arg7)) := by
  show StableHlo.after hostOps1 (W2 m ρ c) (Proc.devRef .tc main_arg7) = _
  dsimp only [hostOps1]
  after_results <;> rfl
theorem v3_arg7 : V3 m ρ c main_arg7 = (m ((c : Thread nD τ).loc main_arg7)) :=
  (v3_arg7_raw m ρ c).trans (by rw [w2_arg7])
theorem v3_arg9_raw : V3 m ρ c main_arg9 = (W2 m ρ c (Proc.devRef .tc main_arg9)) := by
  show StableHlo.after hostOps1 (W2 m ρ c) (Proc.devRef .tc main_arg9) = _
  dsimp only [hostOps1]
  after_results <;> rfl
theorem v3_arg9 : V3 m ρ c main_arg9 = (m ((c : Thread nD τ).loc main_arg9)) :=
  (v3_arg9_raw m ρ c).trans (by rw [w2_arg9])

/-! ### After the second region -/

/-- The second region leaves the second hidden features in its output array. -/
theorem w4_h2 : W4 m ρ c (Proc.devRef .tc main_v29) = (hidden2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  refine (W4_arr m ρ c 5).trans ((Layer1.final (V3 m ρ) c).trans ?_)
  rw [v3_agg, v3_cat, v3_row, v3_arg7, v3_arg9]
  rfl
theorem w4_v1 : W4 m ρ c (Proc.devRef .tc main_v1) = (endpoint0 (m ((c : Thread nD τ).loc main_arg1))) :=
  (W4_of_ne m ρ c main_v1 (by decide)).trans (w3_v1 m ρ c)
theorem w4_v3 : W4 m ρ c (Proc.devRef .tc main_v3) = (endpoint1 (m ((c : Thread nD τ).loc main_arg1))) :=
  (W4_of_ne m ρ c main_v3 (by decide)).trans (w3_v3 m ρ c)
theorem w4_arg2 : W4 m ρ c (Proc.devRef .tc main_arg2) = (m ((c : Thread nD τ).loc main_arg2)) :=
  (W4_of_ne m ρ c main_arg2 (by decide)).trans (w3_arg2 m ρ c)
theorem w4_arg10 : W4 m ρ c (Proc.devRef .tc main_arg10) = (m ((c : Thread nD τ).loc main_arg10)) :=
  (W4_of_ne m ρ c main_arg10 (by decide)).trans (w3_arg10 m ρ c)
theorem w4_arg11 : W4 m ρ c (Proc.devRef .tc main_arg11) = (m ((c : Thread nD τ).loc main_arg11)) :=
  (W4_of_ne m ρ c main_arg11 (by decide)).trans (w3_arg11 m ρ c)
theorem w4_arg12 : W4 m ρ c (Proc.devRef .tc main_arg12) = (m ((c : Thread nD τ).loc main_arg12)) :=
  (W4_of_ne m ρ c main_arg12 (by decide)).trans (w3_arg12 m ρ c)

/-! ### After the third host stretch -/

theorem v5_h2_raw : V5 m ρ c main_v29 = (W4 m ρ c (Proc.devRef .tc main_v29)) := by
  show StableHlo.after hostOps2 (W4 m ρ c) (Proc.devRef .tc main_v29) = _
  dsimp only [hostOps2]
  after_results <;> rfl
theorem v5_h2 : V5 m ρ c main_v29 = (hidden2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :=
  (v5_h2_raw m ρ c).trans (by rw [w4_h2])
set_option maxHeartbeats 1000000 in
theorem v5_agg_raw : V5 m ρ c main_v39 = agg48 (W4 m ρ c (Proc.devRef .tc main_v29)) (W4 m ρ c (Proc.devRef .tc main_v1)) (W4 m ρ c (Proc.devRef .tc main_v3)) := by
  show StableHlo.after hostOps2 (W4 m ρ c) (Proc.devRef .tc main_v39) = _
  dsimp only [hostOps2]
  after_results <;> rfl
theorem v5_agg : V5 m ρ c main_v39 = agg48 (hidden2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (endpoint0 (m ((c : Thread nD τ).loc main_arg1))) (endpoint1 (m ((c : Thread nD τ).loc main_arg1))) :=
  (v5_agg_raw m ρ c).trans (by rw [w4_h2, w4_v1, w4_v3])
theorem v5_row_raw : V5 m ρ c main_v40 = row16 (W4 m ρ c (Proc.devRef .tc main_arg11)) := by
  show StableHlo.after hostOps2 (W4 m ρ c) (Proc.devRef .tc main_v40) = _
  dsimp only [hostOps2]
  after_results <;> rfl
theorem v5_row : V5 m ρ c main_v40 = row16 (m ((c : Thread nD τ).loc main_arg11)) :=
  (v5_row_raw m ρ c).trans (by rw [w4_arg11])
theorem v5_arg10_raw : V5 m ρ c main_arg10 = (W4 m ρ c (Proc.devRef .tc main_arg10)) := by
  show StableHlo.after hostOps2 (W4 m ρ c) (Proc.devRef .tc main_arg10) = _
  dsimp only [hostOps2]
  after_results <;> rfl
theorem v5_arg10 : V5 m ρ c main_arg10 = (m ((c : Thread nD τ).loc main_arg10)) :=
  (v5_arg10_raw m ρ c).trans (by rw [w4_arg10])
theorem v5_arg12_raw : V5 m ρ c main_arg12 = (W4 m ρ c (Proc.devRef .tc main_arg12)) := by
  show StableHlo.after hostOps2 (W4 m ρ c) (Proc.devRef .tc main_arg12) = _
  dsimp only [hostOps2]
  after_results <;> rfl
theorem v5_arg12 : V5 m ρ c main_arg12 = (m ((c : Thread nD τ).loc main_arg12)) :=
  (v5_arg12_raw m ρ c).trans (by rw [w4_arg12])
theorem v5_arg2_raw : V5 m ρ c main_arg2 = (W4 m ρ c (Proc.devRef .tc main_arg2)) := by
  show StableHlo.after hostOps2 (W4 m ρ c) (Proc.devRef .tc main_arg2) = _
  dsimp only [hostOps2]
  after_results <;> rfl
theorem v5_arg2 : V5 m ρ c main_arg2 = (m ((c : Thread nD τ).loc main_arg2)) :=
  (v5_arg2_raw m ρ c).trans (by rw [w4_arg2])

/-! ### After the last region -/

/-- The last region leaves the program's result in the result buffer. -/
theorem result : W6 m ρ c (Proc.devRef .tc main_v41)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W6_arr m ρ c 6).trans ((Layer2.final (V5 m ρ) c).trans ?_)
  rw [v5_agg, v5_h2, v5_row, v5_arg10, v5_arg12, v5_arg2]
  rfl

end Cert.KernelIdeal.Chain

end
-- ==== Proof.RefValue.lean ====
/-
  The reference computes the same function of the arguments.

  The reference program is straight-line: the same gathers and scatter-adds, and per layer two whole matrix
  products, the bias spread over the rows, the sums, and (for the first two layers) a maximum with zero. Read at an
  entry, each layer's dense part is `A·W + bias + H·W'` — the entry the tiled layer stores, with the three terms
  added in the other order — and the host operations between the layers are the very ones of the kernel program,
  so they are matched as whole functions and never opened.
-/
import proofs.«137055_j88098369176052_1_alg».proof.Proof.Gen.ReferenceIdeal.Read
import proofs.«137055_j88098369176052_1_alg».proof.Proof.KernelChain
import proofs.«137055_j88098369176052_1_alg».proof.Proof.LibDenseEntry

noncomputable section

namespace Cert.Bridge

open Idealize.ShloMosaic Idealize.ShloMosaic.ValueIdx
open Cert.ReferenceIdeal.Read Cert.KernelIdeal.Chain Cert.LibDenseEntry

/-- A vector recast as a one-row matrix, read in that row, is the vector. -/
theorem row_entry {N : Nat} {α : Type} (v : (⟨1, ![N]⟩ : Shape).Idx → α)
    (h : (⟨1, ![N]⟩ : Shape).ShapeCasts ⟨2, ![1, N]⟩) (q : Fin N) :
    shapeCast ⟨2, ![1, N]⟩ v h (ix2 0 q) = v (ix1 q) :=
  (shapeCast_addUnit_apply ![N] v h (ix2 0 q)).trans (congrArg v (funext fun a => match a with | ⟨0, _⟩ => rfl))

/-- The zero the reference's maximum is taken against. -/
theorem zero_splat (s : Shape) (h : (⟨0, ![]⟩ : Shape).BroadcastsInDim s ![]) (i : s.Idx) :
    broadcastInDim s ![] h (constant (F := Ideal) ⟨0, ![]⟩ .f32 0x00000000#32) i = (0 : EReal) :=
  Ideal.ofBits_zero_f32

variable (x0 : F32 Cert.KernelIdeal.S100000x48) (x1 : I32 Cert.KernelIdeal.S2x1600000) (x2 x3 : F32 Cert.KernelIdeal.S100000x16)
  (x4 : F32 Cert.KernelIdeal.S64x32) (x5 : F32 Cert.KernelIdeal.S32) (x6 : F32 Cert.KernelIdeal.S64x32)
  (x7 : F32 Cert.KernelIdeal.S48x48) (x8 : F32 Cert.KernelIdeal.S48) (x9 : F32 Cert.KernelIdeal.S48x48)
  (x10 : F32 Cert.KernelIdeal.S48x16) (x11 : F32 Cert.KernelIdeal.S16) (x12 : F32 Cert.KernelIdeal.S48x16)

/-! ## The first layer -/

/-- The reference's first dense part at an entry. -/
theorem dense1 (p : Fin 100000) (q : Fin 32) : val_main_v20 (F := Ideal) x0 x1 x2 x4 x5 x6 (ix2 p q)
    = affine (val_main_v14 (F := Ideal) x0 x1 x2) (val_main_v4 (F := Ideal) x0 x2) x4 x6 (fun q => x5 (ix1 q)) p q := by
  unfold val_main_v20 val_main_v18 val_main_v19 val_main_v15 val_main_v17 val_main_v16
  exact host_entry Cert.ReferenceIdeal.dot_S100000x64_S64x32_S100000x32_1_0_0_1_n_n rfl rfl rfl rfl rfl rfl
    (val_main_v14 (F := Ideal) x0 x1 x2) (val_main_v4 (F := Ideal) x0 x2) x4 x6 x5
    Cert.ReferenceIdeal.Facts₀.bcast_S32_S1x32_1 Cert.ReferenceIdeal.Facts₀.bcast_S1x32_S100000x32_0_1 p q

/-- The reference's first hidden features are the kernel program's. -/
theorem ref_hidden1 : val_main_v21 (F := Ideal) x0 x1 x2 x4 x5 x6 = hidden1 x0 x1 x2 x4 x5 x6 := by
  funext i
  obtain ⟨p, q, rfl⟩ : ∃ (p : Fin 100000) (q : Fin 32), i = ix2 p q := ⟨i 0, i 1, eq_ix2 i⟩
  have e14 : val_main_v14 (F := Ideal) x0 x1 x2 = agg64 (cat64 x0 x2) (endpoint0 x1) (endpoint1 x1) := rfl
  have e4 : val_main_v4 (F := Ideal) x0 x2 = cat64 x0 x2 := rfl
  have eb : (fun q : Fin 32 => x5 (ix1 q)) = fun q => row32 x5 (ix2 0 q) :=
    funext fun q => (row_entry x5 Cert.KernelIdeal.Facts₀.shapeCasts_S32_S1x32 q).symm
  rw [val_main_v21_apply, Ideal.maximumf_def, dense1, e14, e4, eb]
  unfold hidden1 Cert.KernelIdeal.Layer0.G
  exact congrArg (max _) (zero_splat _ _ _)

/-! ## The second layer -/

/-- The reference's second dense part at an entry. -/
theorem dense2 (p : Fin 100000) (q : Fin 48) : val_main_v38 (F := Ideal) x0 x1 x2 x3 x4 x5 x6 x7 x8 x9 (ix2 p q)
    = affine (val_main_v32 (F := Ideal) x0 x1 x2 x3 x4 x5 x6) (val_main_v22 (F := Ideal) x0 x1 x2 x3 x4 x5 x6) x7 x9
        (fun q => x8 (ix1 q)) p q := by
  unfold val_main_v38 val_main_v36 val_main_v37 val_main_v33 val_main_v35 val_main_v34
  exact host_entry Cert.ReferenceIdeal.dot_S100000x48_S48x48_S100000x48_1_0_0_1_n_n rfl rfl rfl rfl rfl rfl
    (val_main_v32 (F := Ideal) x0 x1 x2 x3 x4 x5 x6) (val_main_v22 (F := Ideal) x0 x1 x2 x3 x4 x5 x6) x7 x9 x8
    Cert.ReferenceIdeal.Facts₀.bcast_S48_S1x48_1 Cert.ReferenceIdeal.Facts₀.bcast_S1x48_S100000x48_0_1 p q

/-- The reference's second hidden features are the kernel program's. -/
theorem ref_hidden2 : val_main_v39 (F := Ideal) x0 x1 x2 x3 x4 x5 x6 x7 x8 x9 = hidden2 x0 x1 x2 x3 x4 x5 x6 x7 x8 x9 := by
  funext i
  obtain ⟨p, q, rfl⟩ : ∃ (p : Fin 100000) (q : Fin 48), i = ix2 p q := ⟨i 0, i 1, eq_ix2 i⟩
  have e22 : val_main_v22 (F := Ideal) x0 x1 x2 x3 x4 x5 x6 = cat48 (val_main_v21 (F := Ideal) x0 x1 x2 x4 x5 x6) x3 := rfl
  have e32 : val_main_v32 (F := Ideal) x0 x1 x2 x3 x4 x5 x6
      = agg48 (val_main_v22 (F := Ideal) x0 x1 x2 x3 x4 x5 x6) (endpoint0 x1) (endpoint1 x1) := rfl
  have eb : (fun q : Fin 48 => x8 (ix1 q)) = fun q => row48 x8 (ix2 0 q) :=
    funext fun q => (row_entry x8 Cert.KernelIdeal.Facts₀.shapeCasts_S48_S1x48 q).symm
  rw [val_main_v39_apply, Ideal.maximumf_def, dense2, e32, e22, ref_hidden1, eb]
  unfold hidden2 Cert.KernelIdeal.Layer1.G
  exact congrArg (max _) (zero_splat _ _ _)

/-! ## The last layer -/

/-- The reference's last dense part at an entry. -/
theorem dense3 (p : Fin 100000) (q : Fin 16) : val_main_v55 (F := Ideal) x0 x1 x2 x3 x4 x5 x6 x7 x8 x9 x10 x11 x12 (ix2 p q)
    = affine (val_main_v49 (F := Ideal) x0 x1 x2 x3 x4 x5 x6 x7 x8 x9) (val_main_v39 (F := Ideal) x0 x1 x2 x3 x4 x5 x6 x7 x8 x9) x10 x12
        (fun q => x11 (ix1 q)) p q := by
  unfold val_main_v55 val_main_v53 val_main_v54 val_main_v50 val_main_v52 val_main_v51
  exact host_entry Cert.ReferenceIdeal.dot_S100000x48_S48x16_S100000x16_1_0_0_1_n_n rfl rfl rfl rfl rfl rfl
    (val_main_v49 (F := Ideal) x0 x1 x2 x3 x4 x5 x6 x7 x8 x9) (val_main_v39 (F := Ideal) x0 x1 x2 x3 x4 x5 x6 x7 x8 x9) x10 x12 x11
    Cert.ReferenceIdeal.Facts₀.bcast_S16_S1x16_1 Cert.ReferenceIdeal.Facts₀.bcast_S1x16_S100000x16_0_1 p q

/-- The reference's result is the kernel program's. -/
theorem ref_net : val_main_v56 (F := Ideal) x0 x1 x2 x3 x4 x5 x6 x7 x8 x9 x10 x11 x12
    = net x0 x1 x2 x3 x4 x5 x6 x7 x8 x9 x10 x11 x12 := by
  funext i
  obtain ⟨p, q, rfl⟩ : ∃ (p : Fin 100000) (q : Fin 16), i = ix2 p q := ⟨i 0, i 1, eq_ix2 i⟩
  have e49 : val_main_v49 (F := Ideal) x0 x1 x2 x3 x4 x5 x6 x7 x8 x9
      = agg48 (val_main_v39 (F := Ideal) x0 x1 x2 x3 x4 x5 x6 x7 x8 x9) (endpoint0 x1) (endpoint1 x1) := rfl
  have eb : (fun q : Fin 16 => x11 (ix1 q)) = fun q => row16 x11 (ix2 0 q) :=
    funext fun q => (row_entry x11 Cert.KernelIdeal.Facts₀.shapeCasts_S16_S1x16 q).symm
  rw [val_main_v56_apply, Ideal.addf_def, dense3, e49, ref_hidden2, eb]
  rfl

end Cert.Bridge

end
-- ==== Proof.lean ====
/-
  Three stacked graph-convolution layers, tiled, against their plain reference, over the extended reals.

  Both programs aggregate neighbour features with the same host operations (rows gathered at the edges' sources,
  added into a zero array at their destinations) and then apply, per layer, `A·W_rel + H·W_root + bias`, a maximum
  with zero after the first two layers and the additional input features added after the third. The kernel program
  does the dense part in three tiled regions of twenty row blocks each, adding the two products before the bias; the
  reference adds the bias between the products. On the extended reals a change of float format is the identity, a
  matrix product into a zero accumulator is the plain sum of products, and addition is commutative and associative,
  so entry by entry the two programs compute one function of the thirteen arguments; the precondition that the
  float inputs are finite is never opened.

  The frames of the two kernel programs are the generated ones; the reference's is its generated run with the result
  dropped; the idealization rewrote nothing. The value claim is assembled from: the kernel program's run with its
  result buffer named (KernelRun), the buffers read boundary by boundary (KernelChain, over the three layer modules),
  and the reference's stages matched to the same functions (RefValue).
-/
import proofs.«137055_j88098369176052_1_alg».proof.Defs
import proofs.«137055_j88098369176052_1_alg».proof.Proof.Gen.Kernel
import proofs.«137055_j88098369176052_1_alg».proof.Proof.Gen.Kernel.Skeleton
import proofs.«137055_j88098369176052_1_alg».proof.Proof.Gen.Kernel.Launch
import proofs.«137055_j88098369176052_1_alg».proof.Proof.Gen.Kernel.Points
import proofs.«137055_j88098369176052_1_alg».proof.Proof.Gen.Kernel.Frame
import proofs.«137055_j88098369176052_1_alg».proof.Proof.Gen.KernelIdeal
import proofs.«137055_j88098369176052_1_alg».proof.Proof.Gen.KernelIdeal.Skeleton
import proofs.«137055_j88098369176052_1_alg».proof.Proof.Gen.KernelIdeal.Launch
import proofs.«137055_j88098369176052_1_alg».proof.Proof.Gen.KernelIdeal.Points
import proofs.«137055_j88098369176052_1_alg».proof.Proof.Gen.KernelIdeal.Frame
import proofs.«137055_j88098369176052_1_alg».proof.Proof.Gen.ReferenceIdeal
import proofs.«137055_j88098369176052_1_alg».proof.Proof.Gen.Pre_finite_inputs
import proofs.«137055_j88098369176052_1_alg».proof.Proof.Gen.ReferenceIdeal.Run
import proofs.«137055_j88098369176052_1_alg».proof.Proof.Gen.ReferenceIdeal.Read
import proofs.«137055_j88098369176052_1_alg».proof.Proof.KernelRun
import proofs.«137055_j88098369176052_1_alg».proof.Proof.KernelChain
import proofs.«137055_j88098369176052_1_alg».proof.Proof.RefValue
import Idealize.ShloMosaic.Adequacy
import Idealize.ShloMosaic.Init

noncomputable section

namespace Cert.Proof

open Idealize.ShloMosaic Idealize.SL.Sem

/-- From memories that agree on the arguments both idealized programs run to the end, and both result buffers hold
    the same function of the kernel program's launch arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Chain.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Chain.result m ρ c), (h c).2⟩)
      (Cert.KernelIdeal.Whole.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12⟩ := hagree c
    rw [Cert.ReferenceIdeal.Read.val_main_v56_eq, Cert.Bridge.ref_net, h0, h1, h2, h3, h4, h5, h6, h7, h8, h9, h10, h11, h12]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
